-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v136) = v0 c
          ∧ r.2.mem ((c.tc : Thread Cert.ReferenceIdeal.nD Cert.ReferenceIdeal.τ).loc Cert.ReferenceIdeal.main_v2) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x768 : Shape := ⟨3, ![8, 4096, 768]⟩
abbrev S10x768 : Shape := ⟨2, ![10, 768]⟩
abbrev S_ : Shape := ⟨0, ![]⟩

class Facts : Prop where
  bcast_S_S8x4096x768 : S_.BroadcastsInDim S8x4096x768 (![] : Fin 0 → Fin S8x4096x768.rank)
  reducesTo_S8x4096x768_S_d0_1_2 : S8x4096x768.ReducesTo [0, 1, 2] S_
  h_S_ : 0 < S_.numel
  bcast_S_S10x768 : S_.BroadcastsInDim S10x768 (![] : Fin 0 → Fin S10x768.rank)
  reducesTo_S10x768_S_d0_1 : S10x768.ReducesTo [0, 1] S_

variable [Facts]

def fn {F : FTy → Type} [FloatOps F] (main_arg0 : FVec F S8x4096x768 .f32) (main_arg1 : FVec F S10x768 .f32) : IVec S_ 1 :=
  let main_v0 : FVec F S8x4096x768 .f32 := Host.absf main_arg0
  let main_cst : FVec F S_ .f32 := constant S_ .f32 0x7F800000#32
  let main_v1 : FVec F S8x4096x768 .f32 := broadcastInDim S8x4096x768 ![] bcast_S_S8x4096x768 main_cst
  let main_v2 : IVec S8x4096x768 1 := cmpf .olt main_v0 main_v1
  let main_c : IVec S_ 1 := constantI S_ 1 1#1
  let main_v3 : IVec S_ 1 := (fun x v => Host.reduce IntOp.andi x v reducesTo_S8x4096x768_S_d0_1_2 h_S_) main_v2 main_c
  let main_v4 : FVec F S10x768 .f32 := Host.absf main_arg1
  let main_cst_0 : FVec F S_ .f32 := constant S_ .f32 0x7F800000#32
  let main_v5 : FVec F S10x768 .f32 := broadcastInDim S10x768 ![] bcast_S_S10x768 main_cst_0
  let main_v6 : IVec S10x768 1 := cmpf .olt main_v4 main_v5
  let main_c_1 : IVec S_ 1 := constantI S_ 1 1#1
  let main_v7 : IVec S_ 1 := (fun x v => Host.reduce IntOp.andi x v reducesTo_S10x768_S_d0_1 h_S_) main_v6 main_c_1
  let main_v8 : IVec S_ 1 := andi main_v3 main_v7
  main_v8
-- ==== Kernel.lean ====
abbrev S8x4096x768 : Shape := ⟨3, ![8, 4096, 768]⟩
abbrev S10x768 : Shape := ⟨2, ![10, 768]⟩
abbrev S8x4096x1024 : Shape := ⟨3, ![8, 4096, 1024]⟩
abbrev S8x4096x10 : Shape := ⟨3, ![8, 4096, 10]⟩
abbrev S1x1024x768 : Shape := ⟨3, ![1, 1024, 768]⟩
abbrev S1x1024x1024 : Shape := ⟨3, ![1, 1024, 1024]⟩
abbrev S1x1024x10 : Shape := ⟨3, ![1, 1024, 10]⟩
abbrev S1024x768 : Shape := ⟨2, ![1024, 768]⟩
abbrev S768x10 : Shape := ⟨2, ![768, 10]⟩
abbrev S1024x10 : Shape := ⟨2, ![1024, 10]⟩
abbrev S1024x1024 : Shape := ⟨2, ![1024, 1024]⟩
abbrev S1024x1 : Shape := ⟨2, ![1024, 1]⟩

abbrev nBuf : Space → Nat
  | .hbm => 4
  | .vmem => 7
  | .smem => 0
  | _ => 0

abbrev bufTy : (tb : Table) → Fin (tcTables nBuf tb) → BufTy
  | .hbm, ⟨0, _⟩ => ⟨S8x4096x768, .f32⟩
  | .hbm, ⟨1, _⟩ => ⟨S10x768, .f32⟩
  | .hbm, ⟨2, _⟩ => ⟨S8x4096x1024, .f32⟩
  | .hbm, ⟨3, _⟩ => ⟨S8x4096x10, .f32⟩
  | .local _ .vmem, ⟨0, _⟩ => ⟨S1x1024x768, .f32⟩
  | .local _ .vmem, ⟨1, _⟩ => ⟨S1x1024x768, .f32⟩
  | .local _ .vmem, ⟨2, _⟩ => ⟨S10x768, .f32⟩
  | .local _ .vmem, ⟨3, _⟩ => ⟨S1x1024x1024, .f32⟩
  | .local _ .vmem, ⟨4, _⟩ => ⟨S1x1024x1024, .f32⟩
  | .local _ .vmem, ⟨5, _⟩ => ⟨S1x1024x10, .f32⟩
  | .local _ .vmem, ⟨6, _⟩ => ⟨S1x1024x10, .f32⟩
  | _, _ => ⟨S8x4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S10x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x10 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  inb_S1x1024x768_S1x1024x768_0_0_0 : ∀ a, (![0, 0, 0] : Fin 3 → Nat) a + S1x1024x768.size a ≤ S1x1024x768.size a
  h_S1x1024x768 : 0 < S1x1024x768.numel
  shapeCasts_S1x1024x768_S1024x768 : S1x1024x768.ShapeCasts S1024x768
  inb_S10x768_S10x768_0_0 : ∀ a, (![0, 0] : Fin 2 → Nat) a + S10x768.size a ≤ S10x768.size a
  h_S10x768 : 0 < S10x768.numel
  bitsLt_bf16_f32 : FTy.bits .bf16 < FTy.bits .f32
  transposes_S10x768_p1_0_S768x10 : S10x768.Transposes [1, 0] S768x10
  inb_S1x1024x10_S1x1024x10_0_0_0 : ∀ a, (![0, 0, 0] : Fin 3 → Nat) a + S1x1024x10.size a ≤ S1x1024x10.size a
  h_S1x1024x10 : 0 < S1x1024x10.numel
  shapeCasts_S1x1024x10_S1024x10 : S1x1024x10.ShapeCasts S1024x10
  shapeCasts_S1024x10_S1x1024x10 : S1024x10.ShapeCasts S1x1024x10
  iota_S1024x1024_d1_w32 : S1024x1024.Iotas .tc 32 [1]
  slices_S1024x10_o0_0_S1024x1 : S1024x10.Slices ![0, 0] S1024x1
  shapeCasts_S1024x1_S1024x1 : S1024x1.ShapeCasts S1024x1
  broadcasts_S1024x1_S1024x1024 : S1024x1.Broadcasts S1024x1024
  slices_S1024x10_o0_1_S1024x1 : S1024x10.Slices ![0, 1] S1024x1
  slices_S1024x10_o0_2_S1024x1 : S1024x10.Slices ![0, 2] S1024x1
  slices_S1024x10_o0_3_S1024x1 : S1024x10.Slices ![0, 3] S1024x1
  slices_S1024x10_o0_4_S1024x1 : S1024x10.Slices ![0, 4] S1024x1
  slices_S1024x10_o0_5_S1024x1 : S1024x10.Slices ![0, 5] S1024x1
  slices_S1024x10_o0_6_S1024x1 : S1024x10.Slices ![0, 6] S1024x1
  slices_S1024x10_o0_7_S1024x1 : S1024x10.Slices ![0, 7] S1024x1
  slices_S1024x10_o0_8_S1024x1 : S1024x10.Slices ![0, 8] S1024x1
  slices_S1024x10_o0_9_S1024x1 : S1024x10.Slices ![0, 9] S1024x1
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S1024x1024_S1x1024x1024 : S1024x1024.ShapeCasts S1x1024x1024
  dot_S1024x768_S768x10_S1024x10_1_0_0_1_n_n_wf : DotDims.WF S1024x768 S768x10 S1024x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x768.size a ≤ S8x4096x768.size a
  hwx0_0 : ∀ i : grid0.Coords, EltTy.bits .f32 = 32 ∨ (Rect.block (s := S8x4096x768) S1x1024x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10x768.size a ≤ S10x768.size a
  hwx0_1 : ∀ i : grid0.Coords, EltTy.bits .f32 = 32 ∨ (Rect.block (s := S10x768) S10x768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x1024.size a ≤ S8x4096x1024.size a
  hwx0_2 : ∀ i : grid0.Coords, EltTy.bits .f32 = 32 ∨ (Rect.block (s := S8x4096x1024) S1x1024x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x10.size a ≤ S8x4096x10.size a
  hwx0_3 : ∀ i : grid0.Coords, EltTy.bits .f32 = 32 ∨ (Rect.block (s := S8x4096x10) S1x1024x10.size (cc0_transform_3 i) (hinb0_3 i)).WholeWords (EltTy.packing .f32)

variable [Facts₀]

def dot_S1024x768_S768x10_S1024x10_1_0_0_1_n_n : DotDims S1024x768 S768x10 S1024x10 where
  lhsContracting := [1]
  rhsContracting := [0]
  lhsNonContracting := [0]
  rhsNonContracting := [1]
  lhsBatch := []
  rhsBatch := []
  wf := dot_S1024x768_S768x10_S1024x10_1_0_0_1_n_n_wf

abbrev win0_0 : Pipeline.Window sig grid0 :=
  Pipeline.Window.ofSpec (Memref.whole main_arg0) S1x1024x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S10x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x1024x1024.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x1024x10.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x4096x768 : Shape := ⟨3, ![8, 4096, 768]⟩
abbrev S10x768 : Shape := ⟨2, ![10, 768]⟩
abbrev S8x4096x10 : Shape := ⟨3, ![8, 4096, 10]⟩
abbrev S_ : Shape := ⟨0, ![]⟩
abbrev S8x4096x1 : Shape := ⟨3, ![8, 4096, 1]⟩
abbrev S8x4096 : Shape := ⟨2, ![8, 4096]⟩
abbrev S8x4096x2 : Shape := ⟨3, ![8, 4096, 2]⟩
abbrev S8x4096x1x1 : Shape := ⟨4, ![8, 4096, 1, 1]⟩
abbrev S8x4096x1x2 : Shape := ⟨4, ![8, 4096, 1, 2]⟩
abbrev S8x4096x2x1 : Shape := ⟨4, ![8, 4096, 2, 1]⟩
abbrev S8x4096x2x2 : Shape := ⟨4, ![8, 4096, 2, 2]⟩
abbrev S8x4096x4 : Shape := ⟨3, ![8, 4096, 4]⟩
abbrev S8x4096x4x1 : Shape := ⟨4, ![8, 4096, 4, 1]⟩
abbrev S8x4096x4x2 : Shape := ⟨4, ![8, 4096, 4, 2]⟩
abbrev S8x4096x8 : Shape := ⟨3, ![8, 4096, 8]⟩
abbrev S8x4096x8x1 : Shape := ⟨4, ![8, 4096, 8, 1]⟩
abbrev S8x4096x8x2 : Shape := ⟨4, ![8, 4096, 8, 2]⟩
abbrev S8x4096x16 : Shape := ⟨3, ![8, 4096, 16]⟩
abbrev S8x4096x16x1 : Shape := ⟨4, ![8, 4096, 16, 1]⟩
abbrev S8x4096x16x2 : Shape := ⟨4, ![8, 4096, 16, 2]⟩
abbrev S8x4096x32 : Shape := ⟨3, ![8, 4096, 32]⟩
abbrev S8x4096x32x1 : Shape := ⟨4, ![8, 4096, 32, 1]⟩
abbrev S8x4096x32x2 : Shape := ⟨4, ![8, 4096, 32, 2]⟩
abbrev S8x4096x64 : Shape := ⟨3, ![8, 4096, 64]⟩
abbrev S8x4096x64x1 : Shape := ⟨4, ![8, 4096, 64, 1]⟩
abbrev S8x4096x64x2 : Shape := ⟨4, ![8, 4096, 64, 2]⟩
abbrev S8x4096x128 : Shape := ⟨3, ![8, 4096, 128]⟩
abbrev S8x4096x128x1 : Shape := ⟨4, ![8, 4096, 128, 1]⟩
abbrev S8x4096x128x2 : Shape := ⟨4, ![8, 4096, 128, 2]⟩
abbrev S8x4096x256 : Shape := ⟨3, ![8, 4096, 256]⟩
abbrev S8x4096x256x1 : Shape := ⟨4, ![8, 4096, 256, 1]⟩
abbrev S8x4096x256x2 : Shape := ⟨4, ![8, 4096, 256, 2]⟩
abbrev S8x4096x512 : Shape := ⟨3, ![8, 4096, 512]⟩
abbrev S8x4096x512x1 : Shape := ⟨4, ![8, 4096, 512, 1]⟩
abbrev S8x4096x512x2 : Shape := ⟨4, ![8, 4096, 512, 2]⟩
abbrev S8x4096x1024 : Shape := ⟨3, ![8, 4096, 1024]⟩

abbrev nBuf : Space → Nat
  | .hbm => 142
  | .vmem => 0
  | .smem => 0
  | _ => 0

abbrev hbmTy0_0 (i : Nat) : BufTy := match i % 128 with
  | 0 => ⟨S8x4096x768, .f32⟩
  | 1 => ⟨S10x768, .f32⟩
  | 2 => ⟨S8x4096x10, .f32⟩
  | 3 => ⟨S_, .f32⟩
  | 4 => ⟨S8x4096x10, .f32⟩
  | 5 => ⟨S8x4096x10, .f32⟩
  | 6 => ⟨S_, .f32⟩
  | 7 => ⟨S8x4096x10, .f32⟩
  | 8 => ⟨S8x4096x10, .f32⟩
  | 9 => ⟨S8x4096x10, .f32⟩
  | 10 => ⟨S8x4096x10, .f32⟩
  | 11 => ⟨S_, .f32⟩
  | 12 => ⟨S8x4096x1, .f32⟩
  | 13 => ⟨S8x4096x1, .f32⟩
  | 14 => ⟨S8x4096, .f32⟩
  | 15 => ⟨S8x4096x1, .f32⟩
  | 16 => ⟨S8x4096, .f32⟩
  | 17 => ⟨S8x4096x1, .f32⟩
  | 18 => ⟨S8x4096x1, .f32⟩
  | 19 => ⟨S8x4096x2, .f32⟩
  | 20 => ⟨S8x4096x1x1, .f32⟩
  | 21 => ⟨S8x4096x1x2, .f32⟩
  | 22 => ⟨S8x4096x1x2, .f32⟩
  | 23 => ⟨S8x4096x1x2, .f32⟩
  | 24 => ⟨S8x4096x2, .f32⟩
  | 25 => ⟨S8x4096x1, .f32⟩
  | 26 => ⟨S8x4096, .f32⟩
  | 27 => ⟨S8x4096x1, .f32⟩
  | 28 => ⟨S8x4096, .f32⟩
  | 29 => ⟨S8x4096x1, .f32⟩
  | 30 => ⟨S8x4096x1, .f32⟩
  | 31 => ⟨S8x4096x2, .f32⟩
  | 32 => ⟨S8x4096x2x1, .f32⟩
  | 33 => ⟨S8x4096x1x2, .f32⟩
  | 34 => ⟨S8x4096x2x2, .f32⟩
  | 35 => ⟨S8x4096x2x2, .f32⟩
  | 36 => ⟨S8x4096x2x2, .f32⟩
  | 37 => ⟨S8x4096x4, .f32⟩
  | 38 => ⟨S8x4096x1, .f32⟩
  | 39 => ⟨S8x4096, .f32⟩
  | 40 => ⟨S8x4096x1, .f32⟩
  | 41 => ⟨S8x4096, .f32⟩
  | 42 => ⟨S8x4096x1, .f32⟩
  | 43 => ⟨S8x4096x1, .f32⟩
  | 44 => ⟨S8x4096x2, .f32⟩
  | 45 => ⟨S8x4096x4x1, .f32⟩
  | 46 => ⟨S8x4096x1x2, .f32⟩
  | 47 => ⟨S8x4096x4x2, .f32⟩
  | 48 => ⟨S8x4096x4x2, .f32⟩
  | 49 => ⟨S8x4096x4x2, .f32⟩
  | 50 => ⟨S8x4096x8, .f32⟩
  | 51 => ⟨S8x4096x1, .f32⟩
  | 52 => ⟨S8x4096, .f32⟩
  | 53 => ⟨S8x4096x1, .f32⟩
  | 54 => ⟨S8x4096, .f32⟩
  | 55 => ⟨S8x4096x1, .f32⟩
  | 56 => ⟨S8x4096x1, .f32⟩
  | 57 => ⟨S8x4096x2, .f32⟩
  | 58 => ⟨S8x4096x8x1, .f32⟩
  | 59 => ⟨S8x4096x1x2, .f32⟩
  | 60 => ⟨S8x4096x8x2, .f32⟩
  | 61 => ⟨S8x4096x8x2, .f32⟩
  | 62 => ⟨S8x4096x8x2, .f32⟩
  | 63 => ⟨S8x4096x16, .f32⟩
  | 64 => ⟨S8x4096x1, .f32⟩
  | 65 => ⟨S8x4096, .f32⟩
  | 66 => ⟨S8x4096x1, .f32⟩
  | 67 => ⟨S8x4096, .f32⟩
  | 68 => ⟨S8x4096x1, .f32⟩
  | 69 => ⟨S8x4096x1, .f32⟩
  | 70 => ⟨S8x4096x2, .f32⟩
  | 71 => ⟨S8x4096x16x1, .f32⟩
  | 72 => ⟨S8x4096x1x2, .f32⟩
  | 73 => ⟨S8x4096x16x2, .f32⟩
  | 74 => ⟨S8x4096x16x2, .f32⟩
  | 75 => ⟨S8x4096x16x2, .f32⟩
  | 76 => ⟨S8x4096x32, .f32⟩
  | 77 => ⟨S8x4096x1, .f32⟩
  | 78 => ⟨S8x4096, .f32⟩
  | 79 => ⟨S8x4096x1, .f32⟩
  | 80 => ⟨S8x4096, .f32⟩
  | 81 => ⟨S8x4096x1, .f32⟩
  | 82 => ⟨S8x4096x1, .f32⟩
  | 83 => ⟨S8x4096x2, .f32⟩
  | 84 => ⟨S8x4096x32x1, .f32⟩
  | 85 => ⟨S8x4096x1x2, .f32⟩
  | 86 => ⟨S8x4096x32x2, .f32⟩
  | 87 => ⟨S8x4096x32x2, .f32⟩
  | 88 => ⟨S8x4096x32x2, .f32⟩
  | 89 => ⟨S8x4096x64, .f32⟩
  | 90 => ⟨S8x4096x1, .f32⟩
  | 91 => ⟨S8x4096, .f32⟩
  | 92 => ⟨S8x4096x1, .f32⟩
  | 93 => ⟨S8x4096, .f32⟩
  | 94 => ⟨S8x4096x1, .f32⟩
  | 95 => ⟨S8x4096x1, .f32⟩
  | 96 => ⟨S8x4096x2, .f32⟩
  | 97 => ⟨S8x4096x64x1, .f32⟩
  | 98 => ⟨S8x4096x1x2, .f32⟩
  | 99 => ⟨S8x4096x64x2, .f32⟩
  | 100 => ⟨S8x4096x64x2, .f32⟩
  | 101 => ⟨S8x4096x64x2, .f32⟩
  | 102 => ⟨S8x4096x128, .f32⟩
  | 103 => ⟨S8x4096x1, .f32⟩
  | 104 => ⟨S8x4096, .f32⟩
  | 105 => ⟨S8x4096x1, .f32⟩
  | 106 => ⟨S8x4096, .f32⟩
  | 107 => ⟨S8x4096x1, .f32⟩
  | 108 => ⟨S8x4096x1, .f32⟩
  | 109 => ⟨S8x4096x2, .f32⟩
  | 110 => ⟨S8x4096x128x1, .f32⟩
  | 111 => ⟨S8x4096x1x2, .f32⟩
  | 112 => ⟨S8x4096x128x2, .f32⟩
  | 113 => ⟨S8x4096x128x2, .f32⟩
  | 114 => ⟨S8x4096x128x2, .f32⟩
  | 115 => ⟨S8x4096x256, .f32⟩
  | 116 => ⟨S8x4096x1, .f32⟩
  | 117 => ⟨S8x4096, .f32⟩
  | 118 => ⟨S8x4096x1, .f32⟩
  | 119 => ⟨S8x4096, .f32⟩
  | 120 => ⟨S8x4096x1, .f32⟩
  | 121 => ⟨S8x4096x1, .f32⟩
  | 122 => ⟨S8x4096x2, .f32⟩
  | 123 => ⟨S8x4096x256x1, .f32⟩
  | 124 => ⟨S8x4096x1x2, .f32⟩
  | 125 => ⟨S8x4096x256x2, .f32⟩
  | 126 => ⟨S8x4096x256x2, .f32⟩
  | 127 => ⟨S8x4096x256x2, .f32⟩
  | _ => ⟨S8x4096x768, .f32⟩

abbrev hbmTy0_1 (i : Nat) : BufTy := match i % 128 with
  | 0 => ⟨S8x4096x512, .f32⟩
  | 1 => ⟨S8x4096x1, .f32⟩
  | 2 => ⟨S8x4096, .f32⟩
  | 3 => ⟨S8x4096x1, .f32⟩
  | 4 => ⟨S8x4096, .f32⟩
  | 5 => ⟨S8x4096x1, .f32⟩
  | 6 => ⟨S8x4096x1, .f32⟩
  | 7 => ⟨S8x4096x2, .f32⟩
  | 8 => ⟨S8x4096x512x1, .f32⟩
  | 9 => ⟨S8x4096x1x2, .f32⟩
  | 10 => ⟨S8x4096x512x2, .f32⟩
  | 11 => ⟨S8x4096x512x2, .f32⟩
  | 12 => ⟨S8x4096x512x2, .f32⟩
  | 13 => ⟨S8x4096x1024, .f32⟩
  | _ => ⟨S8x4096x768, .f32⟩

abbrev hbmTy (i : Nat) : BufTy := match i / 128 with
  | 0 => hbmTy0_0 i
  | 1 => hbmTy0_1 i
  | _ => ⟨S8x4096x768, .f32⟩

abbrev bufTy : (tb : Table) → Fin (tcTables nBuf tb) → BufTy
  | .hbm, ⟨i, _⟩ => hbmTy i
  | _, _ => ⟨S8x4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩
abbrev main_v57 : Ref sig .tc := ⟨.hbm, 62, rfl⟩
abbrev main_v58 : Ref sig .tc := ⟨.hbm, 63, rfl⟩
abbrev main_v59 : Ref sig .tc := ⟨.hbm, 64, rfl⟩
abbrev main_v60 : Ref sig .tc := ⟨.hbm, 65, rfl⟩
abbrev main_v61 : Ref sig .tc := ⟨.hbm, 66, rfl⟩
abbrev main_v62 : Ref sig .tc := ⟨.hbm, 67, rfl⟩
abbrev main_v63 : Ref sig .tc := ⟨.hbm, 68, rfl⟩
abbrev main_v64 : Ref sig .tc := ⟨.hbm, 69, rfl⟩
abbrev main_v65 : Ref sig .tc := ⟨.hbm, 70, rfl⟩
abbrev main_v66 : Ref sig .tc := ⟨.hbm, 71, rfl⟩
abbrev main_v67 : Ref sig .tc := ⟨.hbm, 72, rfl⟩
abbrev main_v68 : Ref sig .tc := ⟨.hbm, 73, rfl⟩
abbrev main_v69 : Ref sig .tc := ⟨.hbm, 74, rfl⟩
abbrev main_v70 : Ref sig .tc := ⟨.hbm, 75, rfl⟩
abbrev main_v71 : Ref sig .tc := ⟨.hbm, 76, rfl⟩
abbrev main_v72 : Ref sig .tc := ⟨.hbm, 77, rfl⟩
abbrev main_v73 : Ref sig .tc := ⟨.hbm, 78, rfl⟩
abbrev main_v74 : Ref sig .tc := ⟨.hbm, 79, rfl⟩
abbrev main_v75 : Ref sig .tc := ⟨.hbm, 80, rfl⟩
abbrev main_v76 : Ref sig .tc := ⟨.hbm, 81, rfl⟩
abbrev main_v77 : Ref sig .tc := ⟨.hbm, 82, rfl⟩
abbrev main_v78 : Ref sig .tc := ⟨.hbm, 83, rfl⟩
abbrev main_v79 : Ref sig .tc := ⟨.hbm, 84, rfl⟩
abbrev main_v80 : Ref sig .tc := ⟨.hbm, 85, rfl⟩
abbrev main_v81 : Ref sig .tc := ⟨.hbm, 86, rfl⟩
abbrev main_v82 : Ref sig .tc := ⟨.hbm, 87, rfl⟩
abbrev main_v83 : Ref sig .tc := ⟨.hbm, 88, rfl⟩
abbrev main_v84 : Ref sig .tc := ⟨.hbm, 89, rfl⟩
abbrev main_v85 : Ref sig .tc := ⟨.hbm, 90, rfl⟩
abbrev main_v86 : Ref sig .tc := ⟨.hbm, 91, rfl⟩
abbrev main_v87 : Ref sig .tc := ⟨.hbm, 92, rfl⟩
abbrev main_v88 : Ref sig .tc := ⟨.hbm, 93, rfl⟩
abbrev main_v89 : Ref sig .tc := ⟨.hbm, 94, rfl⟩
abbrev main_v90 : Ref sig .tc := ⟨.hbm, 95, rfl⟩
abbrev main_v91 : Ref sig .tc := ⟨.hbm, 96, rfl⟩
abbrev main_v92 : Ref sig .tc := ⟨.hbm, 97, rfl⟩
abbrev main_v93 : Ref sig .tc := ⟨.hbm, 98, rfl⟩
abbrev main_v94 : Ref sig .tc := ⟨.hbm, 99, rfl⟩
abbrev main_v95 : Ref sig .tc := ⟨.hbm, 100, rfl⟩
abbrev main_v96 : Ref sig .tc := ⟨.hbm, 101, rfl⟩
abbrev main_v97 : Ref sig .tc := ⟨.hbm, 102, rfl⟩
abbrev main_v98 : Ref sig .tc := ⟨.hbm, 103, rfl⟩
abbrev main_v99 : Ref sig .tc := ⟨.hbm, 104, rfl⟩
abbrev main_v100 : Ref sig .tc := ⟨.hbm, 105, rfl⟩
abbrev main_v101 : Ref sig .tc := ⟨.hbm, 106, rfl⟩
abbrev main_v102 : Ref sig .tc := ⟨.hbm, 107, rfl⟩
abbrev main_v103 : Ref sig .tc := ⟨.hbm, 108, rfl⟩
abbrev main_v104 : Ref sig .tc := ⟨.hbm, 109, rfl⟩
abbrev main_v105 : Ref sig .tc := ⟨.hbm, 110, rfl⟩
abbrev main_v106 : Ref sig .tc := ⟨.hbm, 111, rfl⟩
abbrev main_v107 : Ref sig .tc := ⟨.hbm, 112, rfl⟩
abbrev main_v108 : Ref sig .tc := ⟨.hbm, 113, rfl⟩
abbrev main_v109 : Ref sig .tc := ⟨.hbm, 114, rfl⟩
abbrev main_v110 : Ref sig .tc := ⟨.hbm, 115, rfl⟩
abbrev main_v111 : Ref sig .tc := ⟨.hbm, 116, rfl⟩
abbrev main_v112 : Ref sig .tc := ⟨.hbm, 117, rfl⟩
abbrev main_v113 : Ref sig .tc := ⟨.hbm, 118, rfl⟩
abbrev main_v114 : Ref sig .tc := ⟨.hbm, 119, rfl⟩
abbrev main_v115 : Ref sig .tc := ⟨.hbm, 120, rfl⟩
abbrev main_v116 : Ref sig .tc := ⟨.hbm, 121, rfl⟩
abbrev main_v117 : Ref sig .tc := ⟨.hbm, 122, rfl⟩
abbrev main_v118 : Ref sig .tc := ⟨.hbm, 123, rfl⟩
abbrev main_v119 : Ref sig .tc := ⟨.hbm, 124, rfl⟩
abbrev main_v120 : Ref sig .tc := ⟨.hbm, 125, rfl⟩
abbrev main_v121 : Ref sig .tc := ⟨.hbm, 126, rfl⟩
abbrev main_v122 : Ref sig .tc := ⟨.hbm, 127, rfl⟩
abbrev main_v123 : Ref sig .tc := ⟨.hbm, 128, rfl⟩
abbrev main_v124 : Ref sig .tc := ⟨.hbm, 129, rfl⟩
abbrev main_v125 : Ref sig .tc := ⟨.hbm, 130, rfl⟩
abbrev main_v126 : Ref sig .tc := ⟨.hbm, 131, rfl⟩
abbrev main_v127 : Ref sig .tc := ⟨.hbm, 132, rfl⟩
abbrev main_v128 : Ref sig .tc := ⟨.hbm, 133, rfl⟩
abbrev main_v129 : Ref sig .tc := ⟨.hbm, 134, rfl⟩
abbrev main_v130 : Ref sig .tc := ⟨.hbm, 135, rfl⟩
abbrev main_v131 : Ref sig .tc := ⟨.hbm, 136, rfl⟩
abbrev main_v132 : Ref sig .tc := ⟨.hbm, 137, rfl⟩
abbrev main_v133 : Ref sig .tc := ⟨.hbm, 138, rfl⟩
abbrev main_v134 : Ref sig .tc := ⟨.hbm, 139, rfl⟩
abbrev main_v135 : Ref sig .tc := ⟨.hbm, 140, rfl⟩
abbrev main_v136 : Ref sig .tc := ⟨.hbm, 141, rfl⟩

abbrev nD : Nat := 1
abbrev τ : Topo := Topo.v7x

variable {F : FTy → Type} [FloatOps F]

class Facts₀ : Prop where
  bcast_S_S8x4096x10 : S_.BroadcastsInDim S8x4096x10 (![] : Fin 0 → Fin S8x4096x10.rank)
  bcast_S_S8x4096x1 : S_.BroadcastsInDim S8x4096x1 (![] : Fin 0 → Fin S8x4096x1.rank)
  slices_S8x4096x10_S8x4096x1_0_0_0 : S8x4096x10.Slices ![0, 0, 0] S8x4096x1
  shapeCasts_S8x4096x1_S8x4096 : S8x4096x1.ShapeCasts S8x4096
  bcast_S8x4096_S8x4096x1_0_1 : S8x4096.BroadcastsInDim S8x4096x1 (![0, 1] : Fin 2 → Fin S8x4096x1.rank)
  concatenates_S8x4096x1_S8x4096x1_S8x4096x2_d2 : Shape.Concatenates [S8x4096x1, S8x4096x1] S8x4096x2 2
  bcast_S8x4096x1_S8x4096x1x1_0_1_2 : S8x4096x1.BroadcastsInDim S8x4096x1x1 (![0, 1, 2] : Fin 3 → Fin S8x4096x1x1.rank)
  bcast_S8x4096x2_S8x4096x1x2_0_1_3 : S8x4096x2.BroadcastsInDim S8x4096x1x2 (![0, 1, 3] : Fin 3 → Fin S8x4096x1x2.rank)
  bcast_S8x4096x1x1_S8x4096x1x2_0_1_2_3 : S8x4096x1x1.BroadcastsInDim S8x4096x1x2 (![0, 1, 2, 3] : Fin 4 → Fin S8x4096x1x2.rank)
  shapeCasts_S8x4096x1x2_S8x4096x2 : S8x4096x1x2.ShapeCasts S8x4096x2
  slices_S8x4096x10_S8x4096x1_0_0_1 : S8x4096x10.Slices ![0, 0, 1] S8x4096x1
  bcast_S8x4096x2_S8x4096x2x1_0_1_2 : S8x4096x2.BroadcastsInDim S8x4096x2x1 (![0, 1, 2] : Fin 3 → Fin S8x4096x2x1.rank)
  bcast_S8x4096x2x1_S8x4096x2x2_0_1_2_3 : S8x4096x2x1.BroadcastsInDim S8x4096x2x2 (![0, 1, 2, 3] : Fin 4 → Fin S8x4096x2x2.rank)
  bcast_S8x4096x1x2_S8x4096x2x2_0_1_2_3 : S8x4096x1x2.BroadcastsInDim S8x4096x2x2 (![0, 1, 2, 3] : Fin 4 → Fin S8x4096x2x2.rank)
  shapeCasts_S8x4096x2x2_S8x4096x4 : S8x4096x2x2.ShapeCasts S8x4096x4
  slices_S8x4096x10_S8x4096x1_0_0_2 : S8x4096x10.Slices ![0, 0, 2] S8x4096x1
  bcast_S8x4096x4_S8x4096x4x1_0_1_2 : S8x4096x4.BroadcastsInDim S8x4096x4x1 (![0, 1, 2] : Fin 3 → Fin S8x4096x4x1.rank)
  bcast_S8x4096x4x1_S8x4096x4x2_0_1_2_3 : S8x4096x4x1.BroadcastsInDim S8x4096x4x2 (![0, 1, 2, 3] : Fin 4 → Fin S8x4096x4x2.rank)
  bcast_S8x4096x1x2_S8x4096x4x2_0_1_2_3 : S8x4096x1x2.BroadcastsInDim S8x4096x4x2 (![0, 1, 2, 3] : Fin 4 → Fin S8x4096x4x2.rank)
  shapeCasts_S8x4096x4x2_S8x4096x8 : S8x4096x4x2.ShapeCasts S8x4096x8
  slices_S8x4096x10_S8x4096x1_0_0_3 : S8x4096x10.Slices ![0, 0, 3] S8x4096x1
  bcast_S8x4096x8_S8x4096x8x1_0_1_2 : S8x4096x8.BroadcastsInDim S8x4096x8x1 (![0, 1, 2] : Fin 3 → Fin S8x4096x8x1.rank)
  bcast_S8x4096x8x1_S8x4096x8x2_0_1_2_3 : S8x4096x8x1.BroadcastsInDim S8x4096x8x2 (![0, 1, 2, 3] : Fin 4 → Fin S8x4096x8x2.rank)
  bcast_S8x4096x1x2_S8x4096x8x2_0_1_2_3 : S8x4096x1x2.BroadcastsInDim S8x4096x8x2 (![0, 1, 2, 3] : Fin 4 → Fin S8x4096x8x2.rank)
  shapeCasts_S8x4096x8x2_S8x4096x16 : S8x4096x8x2.ShapeCasts S8x4096x16
  slices_S8x4096x10_S8x4096x1_0_0_4 : S8x4096x10.Slices ![0, 0, 4] S8x4096x1
  bcast_S8x4096x16_S8x4096x16x1_0_1_2 : S8x4096x16.BroadcastsInDim S8x4096x16x1 (![0, 1, 2] : Fin 3 → Fin S8x4096x16x1.rank)
  bcast_S8x4096x16x1_S8x4096x16x2_0_1_2_3 : S8x4096x16x1.BroadcastsInDim S8x4096x16x2 (![0, 1, 2, 3] : Fin 4 → Fin S8x4096x16x2.rank)
  bcast_S8x4096x1x2_S8x4096x16x2_0_1_2_3 : S8x4096x1x2.BroadcastsInDim S8x4096x16x2 (![0, 1, 2, 3] : Fin 4 → Fin S8x4096x16x2.rank)
  shapeCasts_S8x4096x16x2_S8x4096x32 : S8x4096x16x2.ShapeCasts S8x4096x32
  slices_S8x4096x10_S8x4096x1_0_0_5 : S8x4096x10.Slices ![0, 0, 5] S8x4096x1
  bcast_S8x4096x32_S8x4096x32x1_0_1_2 : S8x4096x32.BroadcastsInDim S8x4096x32x1 (![0, 1, 2] : Fin 3 → Fin S8x4096x32x1.rank)
  bcast_S8x4096x32x1_S8x4096x32x2_0_1_2_3 : S8x4096x32x1.BroadcastsInDim S8x4096x32x2 (![0, 1, 2, 3] : Fin 4 → Fin S8x4096x32x2.rank)
  bcast_S8x4096x1x2_S8x4096x32x2_0_1_2_3 : S8x4096x1x2.BroadcastsInDim S8x4096x32x2 (![0, 1, 2, 3] : Fin 4 → Fin S8x4096x32x2.rank)
  shapeCasts_S8x4096x32x2_S8x4096x64 : S8x4096x32x2.ShapeCasts S8x4096x64
  slices_S8x4096x10_S8x4096x1_0_0_6 : S8x4096x10.Slices ![0, 0, 6] S8x4096x1
  bcast_S8x4096x64_S8x4096x64x1_0_1_2 : S8x4096x64.BroadcastsInDim S8x4096x64x1 (![0, 1, 2] : Fin 3 → Fin S8x4096x64x1.rank)
  bcast_S8x4096x64x1_S8x4096x64x2_0_1_2_3 : S8x4096x64x1.BroadcastsInDim S8x4096x64x2 (![0, 1, 2, 3] : Fin 4 → Fin S8x4096x64x2.rank)
  bcast_S8x4096x1x2_S8x4096x64x2_0_1_2_3 : S8x4096x1x2.BroadcastsInDim S8x4096x64x2 (![0, 1, 2, 3] : Fin 4 → Fin S8x4096x64x2.rank)
  shapeCasts_S8x4096x64x2_S8x4096x128 : S8x4096x64x2.ShapeCasts S8x4096x128
  slices_S8x4096x10_S8x4096x1_0_0_7 : S8x4096x10.Slices ![0, 0, 7] S8x4096x1
  bcast_S8x4096x128_S8x4096x128x1_0_1_2 : S8x4096x128.BroadcastsInDim S8x4096x128x1 (![0, 1, 2] : Fin 3 → Fin S8x4096x128x1.rank)
  bcast_S8x4096x128x1_S8x4096x128x2_0_1_2_3 : S8x4096x128x1.BroadcastsInDim S8x4096x128x2 (![0, 1, 2, 3] : Fin 4 → Fin S8x4096x128x2.rank)
  bcast_S8x4096x1x2_S8x4096x128x2_0_1_2_3 : S8x4096x1x2.BroadcastsInDim S8x4096x128x2 (![0, 1, 2, 3] : Fin 4 → Fin S8x4096x128x2.rank)
  shapeCasts_S8x4096x128x2_S8x4096x256 : S8x4096x128x2.ShapeCasts S8x4096x256
  slices_S8x4096x10_S8x4096x1_0_0_8 : S8x4096x10.Slices ![0, 0, 8] S8x4096x1
  bcast_S8x4096x256_S8x4096x256x1_0_1_2 : S8x4096x256.BroadcastsInDim S8x4096x256x1 (![0, 1, 2] : Fin 3 → Fin S8x4096x256x1.rank)
  bcast_S8x4096x256x1_S8x4096x256x2_0_1_2_3 : S8x4096x256x1.BroadcastsInDim S8x4096x256x2 (![0, 1, 2, 3] : Fin 4 → Fin S8x4096x256x2.rank)
  bcast_S8x4096x1x2_S8x4096x256x2_0_1_2_3 : S8x4096x1x2.BroadcastsInDim S8x4096x256x2 (![0, 1, 2, 3] : Fin 4 → Fin S8x4096x256x2.rank)
  shapeCasts_S8x4096x256x2_S8x4096x512 : S8x4096x256x2.ShapeCasts S8x4096x512
  slices_S8x4096x10_S8x4096x1_0_0_9 : S8x4096x10.Slices ![0, 0, 9] S8x4096x1
  bcast_S8x4096x512_S8x4096x512x1_0_1_2 : S8x4096x512.BroadcastsInDim S8x4096x512x1 (![0, 1, 2] : Fin 3 → Fin S8x4096x512x1.rank)
  bcast_S8x4096x512x1_S8x4096x512x2_0_1_2_3 : S8x4096x512x1.BroadcastsInDim S8x4096x512x2 (![0, 1, 2, 3] : Fin 4 → Fin S8x4096x512x2.rank)
  bcast_S8x4096x1x2_S8x4096x512x2_0_1_2_3 : S8x4096x1x2.BroadcastsInDim S8x4096x512x2 (![0, 1, 2, 3] : Fin 4 → Fin S8x4096x512x2.rank)
  shapeCasts_S8x4096x512x2_S8x4096x1024 : S8x4096x512x2.ShapeCasts S8x4096x1024
  dot_S8x4096x768_S10x768_S8x4096x10_2_1_01_0_n_n_wf : DotDims.WF S8x4096x768 S10x768 S8x4096x10 [2] [1] [0, 1] [0] [] []

variable [Facts₀]

def dot_S8x4096x768_S10x768_S8x4096x10_2_1_01_0_n_n : DotDims S8x4096x768 S10x768 S8x4096x10 where
  lhsContracting := [2]
  rhsContracting := [1]
  lhsNonContracting := [0, 1]
  rhsNonContracting := [0]
  lhsBatch := []
  rhsBatch := []
  wf := dot_S8x4096x768_S10x768_S8x4096x10_2_1_01_0_n_n_wf

class Facts : Prop extends Facts₀ where

variable [Facts]
-- ==== Proof.LibMatmulRows.lean ====
/-
  GENERAL LEMMAS: the product of an [R, K] matrix with a [K, N] matrix — (A * B)(p, q) = sum over k of A(p, k) * B(k, q) —
  read at an index on extended reals, in the two spellings a kernel and a host program give it. Nothing here mentions a
  program; the extents R, K (the contracted axis: the lanes of A, the rows of B) and N are arbitrary.

  * idx2_ext: two rank-2 indices with the same coordinates are one index.
  * contraction_rows: a contraction of axis 1 of an [R, K] array with axis 0 of a [K, N] array (no batch axes), read at
    (p, q), is the sum over k : Fin K of l (p, k) * r (k, q); the dimension record enters only through four coordinate facts
    about its operand indices and the rank and extent of its contraction shape.
  * matmul_rows: the kernel's spelling — the matrix unit's product into a zero accumulator — at (p, q).
  * hostdot_rows: the host's spelling — dot_general — at (p, q).
  No law of extended-real arithmetic beyond reindexing a finite sum is used, so none of these needs finite inputs.
-/
import Idealize.ShloMosaic.PureOps.Ideal
import Idealize.ShloMosaic.PureOps.Ideal.Laws
import Idealize.ShloMosaic.Lib.ValueIdx

noncomputable section

namespace Cert.LibMatmulRows

open Idealize.ShloMosaic Idealize.ShloMosaic.ValueIdx
open scoped BigOperators

/-- Two rank-2 indices with the same coordinates are one index. -/
theorem idx2_ext {n0 n1 : ℕ} (f g : (⟨2, ![n0, n1]⟩ : Shape).Idx) (h0 : (f 0).val = (g 0).val) (h1 : (f 1).val = (g 1).val) :
    f = g :=
  funext fun d => Fin.ext (by
    match d with
    | ⟨0, _⟩ => exact h0
    | ⟨1, _⟩ => exact h1)

/-- A contraction of the lanes of an [R, K] array with the rows of a [K, N] array, read at (p, q): the sum over k of
    l(p, k) * r(k, q). The dimension record enters through four coordinate facts and the extent of its one contracted
    axis. -/
theorem contraction_rows {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    (l : (⟨2, ![R, K]⟩ : Shape).Idx → EReal) (r : (⟨2, ![K, N]⟩ : Shape).Idx → EReal) (p : Fin R) (q : Fin N) :
    ∑ s : d.contr.Idx, l (d.lhsIdx (ix2 p q) s) * r (d.rhsIdx (ix2 p q) s) = ∑ k : Fin K, l (ix2 p k) * r (ix2 k q) := by
  rw [← Equiv.sum_comp (contrEquiv1 d K hrank hsize).symm]
  refine Finset.sum_congr rfl fun k _ => ?_
  have hk := contrEquiv1_symm_val d K hrank hsize k
  have el : d.lhsIdx (ix2 p q) ((contrEquiv1 d K hrank hsize).symm k) = ix2 p k :=
    idx2_ext _ _ (hl0 _ _) ((hl1 _ _).trans hk)
  have er : d.rhsIdx (ix2 p q) ((contrEquiv1 d K hrank hsize).symm k) = ix2 k q :=
    idx2_ext _ _ ((hr0 _ _).trans hk) (hr1 _ _)
  rw [el, er]

/-- The matrix unit's product into a zero accumulator, read at (p, q). -/
theorem matmul_rows {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    {φ₁ φ₂ : FTy} (l : FVec Ideal ⟨2, ![R, K]⟩ φ₁) (r : FVec Ideal ⟨2, ![K, N]⟩ φ₂) (p : Fin R) (q : Fin N) :
    matmul d none l r (constant (F := Ideal) ⟨2, ![R, N]⟩ .f32 0x00000000#32) (ix2 p q)
      = ∑ k : Fin K, l (ix2 p k) * r (ix2 k q) :=
  (Ideal.matmul_constant_zero_apply d none l r (ix2 p q)).trans
    (contraction_rows d hrank hsize hl0 hl1 hr0 hr1 l r p q)

/-- The host's dot_general, read at (p, q). -/
theorem hostdot_rows {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    (l : FVec Ideal ⟨2, ![R, K]⟩ .f32) (r : FVec Ideal ⟨2, ![K, N]⟩ .f32) (p : Fin R) (q : Fin N) :
    Host.dotGeneral d none l r (ix2 p q) = ∑ k : Fin K, l (ix2 p k) * r (ix2 k q) :=
  (Ideal.dotGeneral_apply d none .single l r (ix2 p q)).trans
    (contraction_rows d hrank hsize hl0 hl1 hr0 hr1 l r p q)

end Cert.LibMatmulRows

end
-- ==== Proof.QSpec.lean ====
/-
  THE SPECIFICATION: the product state of ten rotated qubits, as one function of the activations and the projection weights.

  For a token (b, s) and a wire q the rotation angle is the projection theta(b, s, q) = 1 * sum over k of A(b, s, k) * W(q, k)
  (the factor 1 is the scale delta = 1.0 both programs multiply by). A wire rotated by theta from |0> has amplitudes
  cos(theta / 2) on |0> and sin(theta / 2) on |1>. The ten-wire product state has, on the basis vector numbered j (wire 0 the
  most significant binary digit of j, wire 9 the least), the product over the wires of the amplitude the wire's digit selects.
  The product is taken from 1, wire 0 first, in the order both programs multiply.

  The words of 1.0 and 0.5 are kept as words: both programs use the same words, so their values are never needed.
-/
import Idealize.ShloMosaic.PureOps.Ideal
import Idealize.ShloMosaic.Lib.ValueIdx

noncomputable section

namespace Cert.QSpec

open Idealize.ShloMosaic Idealize.ShloMosaic.ValueIdx
open scoped BigOperators

/-- The word of 1.0: the scale delta, and the state before any wire is multiplied in. -/
abbrev oneW : EReal := Ideal.ofBits .f32 0x3F800000#32
/-- The word of 0.5: a rotation by theta has amplitudes at theta / 2. -/
abbrev halfW : EReal := Ideal.ofBits .f32 0x3F000000#32

/-- The activations [8, 4096, 768] and the projection weights [10, 768]. -/
abbrev Acts := (⟨3, ![8, 4096, 768]⟩ : Shape).Idx → EReal
abbrev Wts := (⟨2, ![10, 768]⟩ : Shape).Idx → EReal

/-- The projection of token (b, s) on wire q. -/
def proj (A : Acts) (W : Wts) (b : Fin 8) (s : Fin 4096) (q : Fin 10) : EReal :=
  ∑ k : Fin 768, A (ix3 b s k) * W (ix2 q k)

/-- The rotation angle: the projection scaled by delta = 1. -/
def angle (A : Acts) (W : Wts) (b : Fin 8) (s : Fin 4096) (q : Fin 10) : EReal := oneW * proj A W b s q

/-- The amplitude of |0> on wire q: the cosine of half the angle. -/
def cosHalf (A : Acts) (W : Wts) (b : Fin 8) (s : Fin 4096) (q : Fin 10) : EReal := Ideal.cos (halfW * angle A W b s q)

/-- The amplitude of |1> on wire q: the sine of half the angle. -/
def sinHalf (A : Acts) (W : Wts) (b : Fin 8) (s : Fin 4096) (q : Fin 10) : EReal := Ideal.sin (halfW * angle A W b s q)

/-- The amplitude the k-th binary digit of j selects: c when the digit is 0, s when it is 1. -/
def amp (c s : EReal) (j k : ℕ) : EReal := if (j / 2 ^ k) % 2 = 0 then c else s

/-- The amplitude wire q contributes to basis vector j when the wire reads digit k of j. -/
def wire (A : Acts) (W : Wts) (b : Fin 8) (s : Fin 4096) (j : ℕ) (q : Fin 10) (k : ℕ) : EReal :=
  amp (cosHalf A W b s q) (sinHalf A W b s q) j k

/-- The amplitude of basis vector j in the product state of token (b, s): from 1, wire 0 (digit 9) first. -/
def state (A : Acts) (W : Wts) (b : Fin 8) (s : Fin 4096) (j : ℕ) : EReal :=
  oneW * wire A W b s j 0 9 * wire A W b s j 1 8 * wire A W b s j 2 7 * wire A W b s j 3 6 * wire A W b s j 4 5
    * wire A W b s j 5 4 * wire A W b s j 6 3 * wire A W b s j 7 2 * wire A W b s j 8 1 * wire A W b s j 9 0

/-- The angles array [8, 4096, 10]. -/
def anglesG (A : Acts) (W : Wts) : (⟨3, ![8, 4096, 10]⟩ : Shape).Idx → EReal := fun i => angle A W (i 0) (i 1) (i 2)

/-- The state array [8, 4096, 1024]. -/
def stateG (A : Acts) (W : Wts) : (⟨3, ![8, 4096, 1024]⟩ : Shape).Idx → EReal := fun i => state A W (i 0) (i 1) (i 2).val

end Cert.QSpec

end
-- ==== Proof.KernelAngles.lean ====
/-
  The kernel's body on one block of 1024 tokens: the projection and the half-angle amplitudes, entry by entry.

  The body holds a [1, 1024, 768] block of activations P0 and the whole [10, 768] weight matrix P1. Its matrix product of the
  block (as [1024, 768]) with the transposed weights, into a zero accumulator, has at (r, q) the sum over k of
  P0(0, r, k) * P1(q, k); the body multiplies it by 1 (on the right; commuted here to the left, as the specification writes
  it). Narrowing to bf16 is the identity on extended reals. The cosine and sine of half that angle are the two amplitudes.
-/
import proofs.«143464_j27161373180356_2_alg».proof.Proof.Gen.KernelIdeal.Skeleton
import proofs.«143464_j27161373180356_2_alg».proof.Proof.LibMatmulRows
import proofs.«143464_j27161373180356_2_alg».proof.Proof.QSpec
import Idealize.ShloMosaic.Lib.Pipeline.Value
import Idealize.ShloMosaic.Lib.ValueIdx
import Idealize.ShloMosaic.PureOps.Ideal.Laws

noncomputable section

namespace Cert.KernelIdeal.Hand

open Cert.KernelIdeal Cert.KernelIdeal.Gen Idealize.ShloMosaic Idealize.ShloMosaic.ValueIdx
open scoped BigOperators

/-- The projection of row r of the block on wire q. -/
def blkProj (P0 : Vec Ideal S1x1024x768 .f32) (P1 : Vec Ideal S10x768 .f32) (r : Fin 1024) (q : Fin 10) : EReal :=
  ∑ k : Fin 768, P0 (ix3 (0 : Fin 1) r k) * P1 (ix2 q k)

/-- The block viewed as a [1024, 768] matrix: row r, lane k is entry (0, r, k). -/
theorem block_as_matrix (P0 : Vec Ideal S1x1024x768 .f32) (r : Fin 1024) (k : Fin 768) :
    shapeCast S1024x768 P0 shapeCasts_S1x1024x768_S1024x768 (ix2 r k) = P0 (ix3 (0 : Fin 1) r k) :=
  shapeCast_apply P0 _ (ix2 r k) (ix3 (0 : Fin 1) r k) (by
    rw [Shape.rowMajor_val_three, Shape.rowMajor_val_two]
    show ((0 : ℕ) * 1024 + r.val) * 768 + k.val = r.val * 768 + k.val
    omega)

/-- The transposed weights: entry (k, q) is W(q, k). -/
theorem weights_transposed (X : FVec Ideal S10x768 .bf16) (k : Fin 768) (q : Fin 10) :
    transpose S768x10 [1, 0] X transposes_S10x768_p1_0_S768x10 (ix2 k q) = X (ix2 q k) :=
  transpose_apply [1, 0] X _ (ix2 k q) (ix2 q k) (fun b => match b with
    | ⟨0, _⟩ => rfl
    | ⟨1, _⟩ => rfl)

/-- The body's angle at (r, q): the projection, scaled by 1. -/
theorem angle_at (P0 : Vec Ideal S1x1024x768 .f32) (P1 : Vec Ideal S10x768 .f32) (r : Fin 1024) (q : Fin 10) :
    k0_pay2 P0 P1 (ix2 r q) = QSpec.oneW * blkProj P0 P1 r q := by
  unfold k0_pay2
  rw [mulf_apply, broadcast_apply, mul_comm]
  refine congrArg (QSpec.oneW * ·) ?_
  refine (LibMatmulRows.matmul_rows dot_S1024x768_S768x10_S1024x10_1_0_0_1_n_n rfl rfl ?_ ?_ ?_ ?_ _ _ r q).trans ?_
  · intro i s
    unfold DotDims.lhsIdx
    rw [dif_neg (show ¬(0 : Fin S1024x768.rank) ∈ dot_S1024x768_S768x10_S1024x10_1_0_0_1_n_n.lhsBatch by decide),
      dif_pos (show (0 : Fin S1024x768.rank) ∈ dot_S1024x768_S768x10_S1024x10_1_0_0_1_n_n.lhsNonContracting by decide)]
    rfl
  · intro i s
    exact dot_S1024x768_S768x10_S1024x10_1_0_0_1_n_n.lhsIdx_val_of_single rfl i s
  · intro i s
    exact dot_S1024x768_S768x10_S1024x10_1_0_0_1_n_n.rhsIdx_val_of_single rfl i s
  · intro i s
    unfold DotDims.rhsIdx
    rw [dif_neg (show ¬(1 : Fin S768x10.rank) ∈ dot_S1024x768_S768x10_S1024x10_1_0_0_1_n_n.rhsBatch by decide),
      dif_pos (show (1 : Fin S768x10.rank) ∈ dot_S1024x768_S768x10_S1024x10_1_0_0_1_n_n.rhsNonContracting by decide)]
    rfl
  · unfold blkProj
    refine Finset.sum_congr rfl fun k _ => ?_
    rw [truncf_apply, block_as_matrix, weights_transposed, truncf_apply]

/-- The amplitude of |0> the body computes at (r, q). -/
theorem cos_at (P0 : Vec Ideal S1x1024x768 .f32) (P1 : Vec Ideal S10x768 .f32) (r : Fin 1024) (q : Fin 10) :
    k0_pay5 P0 P1 (ix2 r q) = Ideal.cos (QSpec.halfW * (QSpec.oneW * blkProj P0 P1 r q)) := by
  unfold k0_pay5 k0_pay4
  show Ideal.cos (QSpec.halfW * k0_pay2 P0 P1 (ix2 r q)) = _
  rw [angle_at]

/-- The amplitude of |1> the body computes at (r, q). -/
theorem sin_at (P0 : Vec Ideal S1x1024x768 .f32) (P1 : Vec Ideal S10x768 .f32) (r : Fin 1024) (q : Fin 10) :
    k0_pay6 P0 P1 (ix2 r q) = Ideal.sin (QSpec.halfW * (QSpec.oneW * blkProj P0 P1 r q)) := by
  unfold k0_pay6 k0_pay4
  show Ideal.sin (QSpec.halfW * k0_pay2 P0 P1 (ix2 r q)) = _
  rw [angle_at]

end Cert.KernelIdeal.Hand

end
-- ==== Proof.LibLayout.lean ====
/-
  Layout operations read at an index given by coordinates: the forms a row-wise normalization meets and the
  library does not yet have.

  * a column of row statistics: a vector `[a]` cast to `[a, 1]` (`keepdims`), and that column broadcast back over
    the `b` lanes of every row, `[a, 1] → [a, b]`;
  * one matrix broadcast over a new leading axis, `[1, b, c] → [a, b, c]`;
  * the rows of a `[4096, 768]` block regrouped as `[4, 1024, 768]` and back: row `r` is group `r / 1024`,
    member `r % 1024`, because both arrays list their entries in the same row-major order;
  * a sum over the lane axis of a matrix, read at row `r`: the sum over `k` of the entries `(r, k)`.
-/
import Idealize.ShloMosaic.Lib.ValueLayout
import Idealize.ShloMosaic.PureOps.Ideal.Laws

noncomputable section

namespace Cert.LibLayout

open Idealize.ShloMosaic Idealize.ShloMosaic.ValueIdx

variable {α : Type}

/-- An `[a]` vector cast to a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast over `b` lanes reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- One `[1, b, c]` matrix broadcast over a leading axis of `a` copies reads, at `(p, q, r)`, the matrix at `(q, r)`. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (q : Fin b) (r : Fin c) :
    broadcastTo ⟨3, ![a, b, c]⟩ v h (ix3 p q r) = v (ix3 (0 : Fin 1) q r) := by
  refine broadcastTo_apply v h (ix3 p q r) (ix3 (0 : Fin 1) q r) fun ax => ?_
  match ax with
  | ⟨0, _⟩ => rfl
  | ⟨1, _⟩ =>
    show q.val = if b = 1 then 0 else q.val
    split
    · have := q.isLt; omega
    · rfl
  | ⟨2, _⟩ =>
    show r.val = if c = 1 then 0 else r.val
    split
    · have := r.isLt; omega
    · rfl

/-- The 4096 rows regrouped as 4 groups of 1024: entry `(g, n, k)` of the regrouped array is row `g · 1024 + n`. -/
theorem shapeCast_split_apply (x : (⟨2, ![4096, 768]⟩ : Shape).Idx → α)
    (h : (⟨2, ![4096, 768]⟩ : Shape).ShapeCasts ⟨3, ![4, 1024, 768]⟩) (g : Fin 4) (n : Fin 1024) (k : Fin 768) :
    shapeCast ⟨3, ![4, 1024, 768]⟩ x h (ix3 g n k) = x (ix2 (⟨g.val * 1024 + n.val, by omega⟩ : Fin 4096) k) :=
  shapeCast_apply x h _ _ (by
    rw [Shape.rowMajor_val_two, Shape.rowMajor_val_three]
    rfl)

/-- The 4 groups of 1024 rows listed again as 4096 rows: row `r` is member `r % 1024` of group `r / 1024`. -/
theorem shapeCast_merge_apply (y : (⟨3, ![4, 1024, 768]⟩ : Shape).Idx → α)
    (h : (⟨3, ![4, 1024, 768]⟩ : Shape).ShapeCasts ⟨2, ![4096, 768]⟩) (r : Fin 4096) (k : Fin 768) :
    shapeCast ⟨2, ![4096, 768]⟩ y h (ix2 r k)
      = y (ix3 (⟨r.val / 1024, by omega⟩ : Fin 4) (⟨r.val % 1024, by omega⟩ : Fin 1024) k) :=
  shapeCast_apply y h _ _ (by
    rw [Shape.rowMajor_val_two, Shape.rowMajor_val_three]
    show (r.val / 1024 * 1024 + r.val % 1024) * 768 + k.val = r.val * 768 + k.val
    omega)

/-- Over row `r` of a matrix, the index with lane `k` put back on the summed axis is `(r, k)`. -/
theorem lift_row {a b : ℕ} (h : Shape.Reduces ⟨2, ![a, b]⟩ [1] ⟨1, ![a]⟩) (r : Fin a) (k : Fin b) :
    h.lift (ix1 r) k = ix2 r k := by
  funext c
  refine Fin.ext ?_
  match c with
  | ⟨0, _⟩ => rfl
  | ⟨1, _⟩ => rfl

/-- A float sum over the lane axis of a matrix, read at row `r` at the exact instance: the sum of the row's entries. -/
theorem laneSum_apply {a b : ℕ} (v : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (r : Fin a) :
    multiReduction .add [1] ⟨1, ![a]⟩ v 0x00000000#32 h hφ hacc (ix1 r) = ∑ k : Fin b, v (ix2 r k) :=
  (Ideal.multiReduction_add_single v 0x00000000#32 h hφ hacc (ix1 r)).trans
    (Finset.sum_congr rfl fun k _ => congrArg v (lift_row h r k))

end Cert.LibLayout

end
-- ==== Proof.LibBitSelect.lean ====
/-
  GENERAL LEMMAS: choosing between two values by one binary digit of a lane number.

  A lane number j below 2^31, written as a 32-bit word, shifted right arithmetically by k < 32 places and masked with 1,
  is the k-th binary digit of j: (j / 2^k) % 2. Comparing that digit with zero and selecting on the comparison picks
  the first value when the digit is 0 and the second when it is 1. Nothing here mentions a program.

  * toNat_lane: the word of a number below 2^32 reads back as the number.
  * digit_word: the shifted and masked word, read as a natural number, is (j / 2^k) % 2.
  * select_digit: the select on "digit = 0" is `if (j / 2^k) % 2 = 0 then a else b`.
-/
import Idealize.ShloMosaic.PureOps.Ideal
import Idealize.ShloMosaic.Lib.ValueIdx

namespace Cert.LibBitSelect

open Idealize.ShloMosaic

/-- The 32-bit word of a number below 2^32 reads back as the number. -/
theorem toNat_lane (j : ℕ) (hj : j < 2 ^ 32) : (BitVec.ofNat 32 j).toNat = j := by
  rw [BitVec.toNat_ofNat]; exact Nat.mod_eq_of_lt hj

/-- A lane number below 2^31 shifted right (sign-filling) by k < 32 places and masked with 1 is its k-th binary digit. -/
theorem digit_word (j k : ℕ) (hj : j < 2 ^ 31) (hk : k < 32) :
    (IntOp.andi (IntOp.shrsi .vector (BitVec.ofNat 32 j) (BitVec.ofNat 32 k)) 1#32).toNat = (j / 2 ^ k) % 2 := by
  have hj32 : j < 2 ^ 32 := by omega
  have hkn : (BitVec.ofNat 32 k).toNat = k := by
    rw [BitVec.toNat_ofNat]; exact Nat.mod_eq_of_lt (by omega)
  have hmsb : (BitVec.ofNat 32 j).msb = false := by
    rw [BitVec.msb_eq_false_iff_two_mul_lt, toNat_lane j hj32]; omega
  unfold IntOp.andi IntOp.shrsi
  rw [if_pos (by rw [hkn]; exact hk)]
  unfold BitVec.sshiftRight'
  rw [hkn, BitVec.sshiftRight_eq_of_msb_false hmsb, BitVec.toNat_and, BitVec.toNat_ushiftRight, toNat_lane j hj32,
    Nat.shiftRight_eq_div_pow]
  show (j / 2 ^ k) &&& 1 = (j / 2 ^ k) % 2
  exact Nat.and_one_is_mod _

/-- Selecting on "the k-th binary digit of lane j is zero": the first value when the digit is 0, the second when it is 1. -/
theorem select_digit {α : Type} (j k : ℕ) (hj : j < 2 ^ 31) (hk : k < 32) (a b : α) :
    Scalar.select (IntOp.cmpi .eq (IntOp.andi (IntOp.shrsi .vector (BitVec.ofNat 32 j) (BitVec.ofNat 32 k)) 1#32) 0#32) a b
      = if (j / 2 ^ k) % 2 = 0 then a else b := by
  have hd := digit_word j k hj hk
  unfold Scalar.select IntOp.cmpi
  by_cases h0 : (j / 2 ^ k) % 2 = 0
  · rw [if_pos h0]
    have hw : IntOp.andi (IntOp.shrsi .vector (BitVec.ofNat 32 j) (BitVec.ofNat 32 k)) 1#32 = 0#32 :=
      BitVec.eq_of_toNat_eq (by rw [hd, h0]; rfl)
    rw [hw]
    rfl
  · rw [if_neg h0]
    have hw : ¬ IntOp.andi (IntOp.shrsi .vector (BitVec.ofNat 32 j) (BitVec.ofNat 32 k)) 1#32 = 0#32 := fun he => by
      rw [he] at hd; exact h0 hd.symm
    have hb : (IntOp.andi (IntOp.shrsi .vector (BitVec.ofNat 32 j) (BitVec.ofNat 32 k)) 1#32 == 0#32) = false := by
      rw [beq_eq_false_iff_ne]; exact hw
    rw [hb]
    rfl

end Cert.LibBitSelect
-- ==== Proof.KernelState.lean ====
/-
  The kernel's body on one block: the product state, entry by entry.

  The body never reshapes: it keeps the state as a [1024, 1024] matrix (row = token of the block, lane = basis vector j) and
  multiplies in one wire at a time. For wire q it takes digit 9 - q of the lane number (lane word shifted right by 9 - q,
  masked with 1), compares the digit with 0, and selects the row's cosine amplitude (digit 0) or sine amplitude (digit 1),
  each taken as column q of the [1024, 10] amplitude matrices and spread over the lanes. Read at (r, j) the ten steps leave
  1 * a_0 * a_1 * ... * a_9 with a_q the amplitude that digit 9 - q of j selects on wire q of row r.
-/
import proofs.«143464_j27161373180356_2_alg».proof.Proof.Gen.KernelIdeal.Skeleton
import proofs.«143464_j27161373180356_2_alg».proof.Proof.LibLayout
import proofs.«143464_j27161373180356_2_alg».proof.Proof.LibBitSelect
import proofs.«143464_j27161373180356_2_alg».proof.Proof.QSpec
import Idealize.ShloMosaic.Lib.Pipeline.Value
import Idealize.ShloMosaic.Lib.ValueIdx

noncomputable section

namespace Cert.KernelIdeal.Hand

open Cert.KernelIdeal Cert.KernelIdeal.Gen Idealize.ShloMosaic Idealize.ShloMosaic.ValueIdx

/-- The test "digit k of lane j is zero", as the word-level comparison the body computes. -/
abbrev digitIsZero (j k : ℕ) : BitVec 1 :=
  IntOp.cmpi .eq (IntOp.andi (IntOp.shrsi .vector (BitVec.ofNat 32 j) (BitVec.ofNat 32 k)) 1#32) 0#32

/-- The lane numbers: at (r, j) the word of j. -/
theorem lane_at (r j : Fin 1024) :
    iota .tc S1024x1024 32 [1] iota_S1024x1024_d1_w32 (ix2 r j) = BitVec.ofNat 32 j.val :=
  iota_single_apply .tc S1024x1024 32 1 iota_S1024x1024_d1_w32 (ix2 r j)

/-- Shift, mask and compare, read at (r, j), for any lane-number and shift-amount matrices with the given entries there. -/
theorem digit_test (io sh : IVec S1024x1024 32) (r j : Fin 1024) (k : ℕ)
    (hio : io (ix2 r j) = BitVec.ofNat 32 j.val) (hsh : sh (ix2 r j) = BitVec.ofNat 32 k) :
    cmpi .eq (andi (shrsi io sh) (broadcast S1024x1024 1#32)) (broadcast S1024x1024 0#32) (ix2 r j) = digitIsZero j.val k := by
  show IntOp.cmpi .eq (IntOp.andi (IntOp.shrsi .vector (io (ix2 r j)) (sh (ix2 r j))) 1#32) 0#32 = _
  rw [hio, hsh]

/-- Column q of a [1024, 10] matrix, sliced out as a [1024, 1] column: row r holds entry (r, q). -/
theorem slice_at (cv : FVec Ideal S1024x10 .f32) (q : Fin 10) (h : S1024x10.Slices ![0, q.val] S1024x1) (r : Fin 1024) :
    extractStridedSlice S1024x1 ![0, q.val] cv h (ix2 r (0 : Fin 1)) = cv (ix2 r q) :=
  extractStridedSlice_apply ![0, q.val] cv h (ix2 r (0 : Fin 1)) (ix2 r q) (fun a => match a with
    | ⟨0, _⟩ => by show r.val = 0 + r.val; omega
    | ⟨1, _⟩ => by show q.val = q.val + 0; omega)

/-- One wire multiplied in, read at (r, j): the running product times the amplitude digit k of j selects. -/
theorem wire_step (acc : FVec Ideal S1024x1024 .f32) (cnd : IVec S1024x1024 1) (ccol scol : FVec Ideal S1024x1 .f32)
    (r j : Fin 1024) (k : ℕ) (hk : k < 32) (c s : EReal)
    (hcnd : cnd (ix2 r j) = digitIsZero j.val k)
    (hc : ccol (ix2 r (0 : Fin 1)) = c) (hs : scol (ix2 r (0 : Fin 1)) = s) :
    mulf acc (select cnd
        (broadcastTo S1024x1024 (shapeCast S1024x1 ccol shapeCasts_S1024x1_S1024x1) broadcasts_S1024x1_S1024x1024)
        (broadcastTo S1024x1024 (shapeCast S1024x1 scol shapeCasts_S1024x1_S1024x1) broadcasts_S1024x1_S1024x1024)) (ix2 r j)
      = acc (ix2 r j) * QSpec.amp c s j.val k := by
  rw [mulf_apply, select_apply, LibLayout.broadcastTo_a1_ab_apply, LibLayout.broadcastTo_a1_ab_apply, shapeCast_self,
    shapeCast_self, hcnd, hc, hs, LibBitSelect.select_digit j.val k (by have := j.isLt; omega) hk]
  rfl

/-- Wire 0 (digit 9) multiplied into the all-ones start. -/
theorem first_wire (P0 : Vec Ideal S1x1024x768 .f32) (P1 : Vec Ideal S10x768 .f32) (r j : Fin 1024) :
    k0_pay7 P0 P1 (ix2 r j)
      = QSpec.oneW * QSpec.amp (k0_pay5 P0 P1 (ix2 r 0)) (k0_pay6 P0 P1 (ix2 r 0)) j.val 9 := by
  unfold k0_pay7
  exact (wire_step _ _ _ _ r j 9 (by decide) _ _ (digit_test _ _ r j 9 (lane_at r j) rfl)
    (slice_at (k0_pay5 P0 P1) 0 _ r) (slice_at (k0_pay6 P0 P1) 0 _ r)).trans rfl

/-- The digit-8 test the first part of the body hands on. -/
theorem test8_at (r j : Fin 1024) : k0_pay8 (ix2 r j) = digitIsZero j.val 8 := by
  unfold k0_pay8
  exact digit_test _ _ r j 8 (lane_at r j) rfl

/-- The cosine column of wire 1 the first part hands on. -/
theorem coscol1_at (P0 : Vec Ideal S1x1024x768 .f32) (P1 : Vec Ideal S10x768 .f32) (r : Fin 1024) :
    k0_pay9 P0 P1 (ix2 r (0 : Fin 1)) = k0_pay5 P0 P1 (ix2 r 1) := by
  unfold k0_pay9
  exact slice_at (k0_pay5 P0 P1) 1 _ r

/-- Wires 1 to 4 (digits 8 to 5) multiplied in. -/
theorem wires_1_4 (cv sv : FVec Ideal S1024x10 .f32) (io : IVec S1024x1024 32) (v31 : FVec Ideal S1024x1024 .f32)
    (v37 : IVec S1024x1024 1) (v38 : FVec Ideal S1024x1 .f32) (r j : Fin 1024)
    (hio : io (ix2 r j) = BitVec.ofNat 32 j.val) (h37 : v37 (ix2 r j) = digitIsZero j.val 8)
    (h38 : v38 (ix2 r (0 : Fin 1)) = cv (ix2 r 1)) :
    k0_pay10 cv sv io v31 v37 v38 (ix2 r j)
      = v31 (ix2 r j) * QSpec.amp (cv (ix2 r 1)) (sv (ix2 r 1)) j.val 8 * QSpec.amp (cv (ix2 r 2)) (sv (ix2 r 2)) j.val 7
          * QSpec.amp (cv (ix2 r 3)) (sv (ix2 r 3)) j.val 6 * QSpec.amp (cv (ix2 r 4)) (sv (ix2 r 4)) j.val 5 := by
  unfold k0_pay10
  refine (wire_step _ _ _ _ r j 5 (by decide) _ _ (digit_test _ _ r j 5 hio rfl) (slice_at cv 4 _ r) (slice_at sv 4 _ r)).trans ?_
  refine congrArg (· * QSpec.amp (cv (ix2 r 4)) (sv (ix2 r 4)) j.val 5) ?_
  refine (wire_step _ _ _ _ r j 6 (by decide) _ _ (digit_test _ _ r j 6 hio rfl) (slice_at cv 3 _ r) (slice_at sv 3 _ r)).trans ?_
  refine congrArg (· * QSpec.amp (cv (ix2 r 3)) (sv (ix2 r 3)) j.val 6) ?_
  refine (wire_step _ _ _ _ r j 7 (by decide) _ _ (digit_test _ _ r j 7 hio rfl) (slice_at cv 2 _ r) (slice_at sv 2 _ r)).trans ?_
  refine congrArg (· * QSpec.amp (cv (ix2 r 2)) (sv (ix2 r 2)) j.val 7) ?_
  exact wire_step _ _ _ _ r j 8 (by decide) _ _ h37 h38 (slice_at sv 1 _ r)

/-- Wires 5 to 7 (digits 4 to 2) multiplied in. -/
theorem wires_5_7 (cv sv : FVec Ideal S1024x10 .f32) (io : IVec S1024x1024 32) (v87 : FVec Ideal S1024x1024 .f32)
    (v88 : IVec S1024x1024 32) (r j : Fin 1024)
    (hio : io (ix2 r j) = BitVec.ofNat 32 j.val) (h88 : v88 (ix2 r j) = BitVec.ofNat 32 4) :
    k0_pay12 cv sv io v87 v88 (ix2 r j)
      = v87 (ix2 r j) * QSpec.amp (cv (ix2 r 5)) (sv (ix2 r 5)) j.val 4 * QSpec.amp (cv (ix2 r 6)) (sv (ix2 r 6)) j.val 3
          * QSpec.amp (cv (ix2 r 7)) (sv (ix2 r 7)) j.val 2 := by
  unfold k0_pay12
  refine (wire_step _ _ _ _ r j 2 (by decide) _ _ (digit_test _ _ r j 2 hio rfl) (slice_at cv 7 _ r) (slice_at sv 7 _ r)).trans ?_
  refine congrArg (· * QSpec.amp (cv (ix2 r 7)) (sv (ix2 r 7)) j.val 2) ?_
  refine (wire_step _ _ _ _ r j 3 (by decide) _ _ (digit_test _ _ r j 3 hio rfl) (slice_at cv 6 _ r) (slice_at sv 6 _ r)).trans ?_
  refine congrArg (· * QSpec.amp (cv (ix2 r 6)) (sv (ix2 r 6)) j.val 3) ?_
  exact wire_step _ _ _ _ r j 4 (by decide) _ _ (digit_test _ _ r j 4 hio h88) (slice_at cv 5 _ r) (slice_at sv 5 _ r)

/-- The digit-1 test the third part hands on. -/
theorem test1_at (io : IVec S1024x1024 32) (r j : Fin 1024) (hio : io (ix2 r j) = BitVec.ofNat 32 j.val) :
    k0_pay13 io (ix2 r j) = digitIsZero j.val 1 := by
  unfold k0_pay13
  exact digit_test _ _ r j 1 hio rfl

/-- The stored [1, 1024, 1024] block is the [1024, 1024] state matrix: entry (0, r, j) is entry (r, j). -/
theorem state_as_block (X : FVec Ideal S1024x1024 .f32) (r j : Fin 1024) :
    shapeCast S1x1024x1024 X shapeCasts_S1024x1024_S1x1024x1024 (ix3 (0 : Fin 1) r j) = X (ix2 r j) :=
  shapeCast_apply X _ (ix3 (0 : Fin 1) r j) (ix2 r j) (by
    rw [Shape.rowMajor_val_three, Shape.rowMajor_val_two]
    show r.val * 1024 + j.val = ((0 : ℕ) * 1024 + r.val) * 1024 + j.val
    omega)

/-- Wires 8 and 9 (digits 1 and 0) multiplied in, and the result laid out as the block to store. -/
theorem wires_8_9 (cv sv : FVec Ideal S1024x10 .f32) (io : IVec S1024x1024 32) (v129 : FVec Ideal S1024x1024 .f32)
    (v135 : IVec S1024x1024 1) (v136 v137 : FVec Ideal S1024x1 .f32) (r j : Fin 1024)
    (hio : io (ix2 r j) = BitVec.ofNat 32 j.val) (h135 : v135 (ix2 r j) = digitIsZero j.val 1)
    (h136 : v136 (ix2 r (0 : Fin 1)) = cv (ix2 r 8)) (h137 : v137 (ix2 r (0 : Fin 1)) = sv (ix2 r 8)) :
    k0_pay1 cv sv io v129 v135 v136 v137 (ix3 (0 : Fin 1) r j)
      = v129 (ix2 r j) * QSpec.amp (cv (ix2 r 8)) (sv (ix2 r 8)) j.val 1 * QSpec.amp (cv (ix2 r 9)) (sv (ix2 r 9)) j.val 0 := by
  unfold k0_pay1
  refine (state_as_block _ r j).trans ?_
  refine (wire_step _ _ _ _ r j 0 (by decide) _ _ (digit_test _ _ r j 0 hio rfl) (slice_at cv 9 _ r) (slice_at sv 9 _ r)).trans ?_
  refine congrArg (· * QSpec.amp (cv (ix2 r 9)) (sv (ix2 r 9)) j.val 0) ?_
  exact wire_step _ _ _ _ r j 1 (by decide) _ _ h135 h136 h137

end Cert.KernelIdeal.Hand

end
-- ==== Proof.KernelBody.lean ====
/-
  The kernel's body on one block, against the specification.

  What the body stores for the state window, as one term of the two loaded blocks (the four parts of the body chained), read
  at (0, r, j): 1 * a_0 * ... * a_9 with a_q the amplitude digit 9 - q of j selects on wire q of row r. When the activation
  block is rows s0 ... s0 + 1023 of batch b of the activations and the weight block is the whole weight matrix, row r of
  the block is token (b, s0 + r), so the stored state entry is the specification's state(b, s0 + r, j) and the stored angle
  entry is the specification's angle(b, s0 + r, q).
-/
import proofs.«143464_j27161373180356_2_alg».proof.Proof.KernelAngles
import proofs.«143464_j27161373180356_2_alg».proof.Proof.KernelState

noncomputable section

namespace Cert.KernelIdeal.Hand

open Cert.KernelIdeal Cert.KernelIdeal.Gen Idealize.ShloMosaic Idealize.ShloMosaic.ValueIdx
open scoped BigOperators

/-- The state block the body stores, from the two loaded blocks: the four parts of the body chained. -/
def bodyState (P0 : Vec Ideal S1x1024x768 .f32) (P1 : Vec Ideal S10x768 .f32) : FVec Ideal S1x1024x1024 .f32 :=
  k0_pay1 (k0_pay5 P0 P1) (k0_pay6 P0 P1) (iota .tc S1024x1024 32 [1] iota_S1024x1024_d1_w32)
    (k0_pay12 (k0_pay5 P0 P1) (k0_pay6 P0 P1) (iota .tc S1024x1024 32 [1] iota_S1024x1024_d1_w32)
      (k0_pay10 (k0_pay5 P0 P1) (k0_pay6 P0 P1) (iota .tc S1024x1024 32 [1] iota_S1024x1024_d1_w32) (k0_pay7 P0 P1) k0_pay8
        (k0_pay9 P0 P1))
      k0_pay11)
    (k0_pay13 (iota .tc S1024x1024 32 [1] iota_S1024x1024_d1_w32)) (k0_pay14 (k0_pay5 P0 P1)) (k0_pay15 (k0_pay6 P0 P1))

/-- The cosine amplitude of row r on wire q, from the block's projection. -/
def blkCos (P0 : Vec Ideal S1x1024x768 .f32) (P1 : Vec Ideal S10x768 .f32) (r : Fin 1024) (q : Fin 10) : EReal :=
  Ideal.cos (QSpec.halfW * (QSpec.oneW * blkProj P0 P1 r q))

/-- The sine amplitude of row r on wire q, from the block's projection. -/
def blkSin (P0 : Vec Ideal S1x1024x768 .f32) (P1 : Vec Ideal S10x768 .f32) (r : Fin 1024) (q : Fin 10) : EReal :=
  Ideal.sin (QSpec.halfW * (QSpec.oneW * blkProj P0 P1 r q))

/-- The stored state at (0, r, j): the ten selected amplitudes multiplied from 1, wire 0 first. -/
theorem body_state_at (P0 : Vec Ideal S1x1024x768 .f32) (P1 : Vec Ideal S10x768 .f32) (r j : Fin 1024) :
    bodyState P0 P1 (ix3 (0 : Fin 1) r j)
      = QSpec.oneW * QSpec.amp (blkCos P0 P1 r 0) (blkSin P0 P1 r 0) j.val 9
          * QSpec.amp (blkCos P0 P1 r 1) (blkSin P0 P1 r 1) j.val 8 * QSpec.amp (blkCos P0 P1 r 2) (blkSin P0 P1 r 2) j.val 7
          * QSpec.amp (blkCos P0 P1 r 3) (blkSin P0 P1 r 3) j.val 6 * QSpec.amp (blkCos P0 P1 r 4) (blkSin P0 P1 r 4) j.val 5
          * QSpec.amp (blkCos P0 P1 r 5) (blkSin P0 P1 r 5) j.val 4 * QSpec.amp (blkCos P0 P1 r 6) (blkSin P0 P1 r 6) j.val 3
          * QSpec.amp (blkCos P0 P1 r 7) (blkSin P0 P1 r 7) j.val 2 * QSpec.amp (blkCos P0 P1 r 8) (blkSin P0 P1 r 8) j.val 1
          * QSpec.amp (blkCos P0 P1 r 9) (blkSin P0 P1 r 9) j.val 0 := by
  have h7 := first_wire P0 P1 r j
  have h10 := wires_1_4 (k0_pay5 P0 P1) (k0_pay6 P0 P1) (iota .tc S1024x1024 32 [1] iota_S1024x1024_d1_w32) (k0_pay7 P0 P1)
    k0_pay8 (k0_pay9 P0 P1) r j (lane_at r j) (test8_at r j) (coscol1_at P0 P1 r)
  have h12 := wires_5_7 (k0_pay5 P0 P1) (k0_pay6 P0 P1) (iota .tc S1024x1024 32 [1] iota_S1024x1024_d1_w32)
    (k0_pay10 (k0_pay5 P0 P1) (k0_pay6 P0 P1) (iota .tc S1024x1024 32 [1] iota_S1024x1024_d1_w32) (k0_pay7 P0 P1) k0_pay8
      (k0_pay9 P0 P1)) k0_pay11 r j (lane_at r j) rfl
  have h1 := wires_8_9 (k0_pay5 P0 P1) (k0_pay6 P0 P1) (iota .tc S1024x1024 32 [1] iota_S1024x1024_d1_w32)
    (k0_pay12 (k0_pay5 P0 P1) (k0_pay6 P0 P1) (iota .tc S1024x1024 32 [1] iota_S1024x1024_d1_w32)
      (k0_pay10 (k0_pay5 P0 P1) (k0_pay6 P0 P1) (iota .tc S1024x1024 32 [1] iota_S1024x1024_d1_w32) (k0_pay7 P0 P1) k0_pay8
        (k0_pay9 P0 P1)) k0_pay11)
    (k0_pay13 (iota .tc S1024x1024 32 [1] iota_S1024x1024_d1_w32)) (k0_pay14 (k0_pay5 P0 P1)) (k0_pay15 (k0_pay6 P0 P1)) r j
    (lane_at r j) (test1_at _ r j (lane_at r j))
    (by unfold k0_pay14; exact slice_at (k0_pay5 P0 P1) 8 _ r) (by unfold k0_pay15; exact slice_at (k0_pay6 P0 P1) 8 _ r)
  unfold bodyState
  rw [h1, h12, h10, h7]
  simp only [cos_at, sin_at]
  rfl

/-- With the activation block rows s0 ... s0 + 1023 of batch b and the weight block the whole matrix, the block's projection of
    row r is the specification's projection of token (b, s0 + r). -/
theorem blkProj_eq (P0 : Vec Ideal S1x1024x768 .f32) (P1 : Vec Ideal S10x768 .f32) (A : QSpec.Acts) (W : QSpec.Wts)
    (b : Fin 8) (s0 : ℕ) (hs0 : s0 + 1024 ≤ 4096)
    (hP0 : ∀ (r : Fin 1024) (k : Fin 768), P0 (ix3 (0 : Fin 1) r k) = A (ix3 b (⟨s0 + r.val, by omega⟩ : Fin 4096) k))
    (hP1 : ∀ (q : Fin 10) (k : Fin 768), P1 (ix2 q k) = W (ix2 q k)) (r : Fin 1024) (q : Fin 10) :
    blkProj P0 P1 r q = QSpec.proj A W b (⟨s0 + r.val, by omega⟩ : Fin 4096) q := by
  unfold blkProj QSpec.proj
  exact Finset.sum_congr rfl fun k _ => by rw [hP0, hP1]

/-- The stored state entry (0, r, j) is the specification's state of token (b, s0 + r) on basis vector j. -/
theorem block_state (P0 : Vec Ideal S1x1024x768 .f32) (P1 : Vec Ideal S10x768 .f32) (A : QSpec.Acts) (W : QSpec.Wts)
    (b : Fin 8) (s0 : ℕ) (hs0 : s0 + 1024 ≤ 4096)
    (hP0 : ∀ (r : Fin 1024) (k : Fin 768), P0 (ix3 (0 : Fin 1) r k) = A (ix3 b (⟨s0 + r.val, by omega⟩ : Fin 4096) k))
    (hP1 : ∀ (q : Fin 10) (k : Fin 768), P1 (ix2 q k) = W (ix2 q k)) (r j : Fin 1024) :
    bodyState P0 P1 (ix3 (0 : Fin 1) r j) = QSpec.state A W b (⟨s0 + r.val, by omega⟩ : Fin 4096) j.val := by
  rw [body_state_at]
  unfold blkCos blkSin QSpec.state QSpec.wire QSpec.cosHalf QSpec.sinHalf QSpec.angle
  simp only [blkProj_eq P0 P1 A W b s0 hs0 hP0 hP1]

/-- The stored angle entry (0, r, q) is the specification's angle of token (b, s0 + r) on wire q. -/
theorem block_angle (P0 : Vec Ideal S1x1024x768 .f32) (P1 : Vec Ideal S10x768 .f32) (A : QSpec.Acts) (W : QSpec.Wts)
    (b : Fin 8) (s0 : ℕ) (hs0 : s0 + 1024 ≤ 4096)
    (hP0 : ∀ (r : Fin 1024) (k : Fin 768), P0 (ix3 (0 : Fin 1) r k) = A (ix3 b (⟨s0 + r.val, by omega⟩ : Fin 4096) k))
    (hP1 : ∀ (q : Fin 10) (k : Fin 768), P1 (ix2 q k) = W (ix2 q k)) (r : Fin 1024) (q : Fin 10) :
    k0_pay3 P0 P1 (ix3 (0 : Fin 1) r q) = QSpec.angle A W b (⟨s0 + r.val, by omega⟩ : Fin 4096) q := by
  unfold k0_pay3
  refine (shapeCast_apply (k0_pay2 P0 P1) shapeCasts_S1024x10_S1x1024x10 (ix3 (0 : Fin 1) r q) (ix2 r q) (by
    rw [Shape.rowMajor_val_three, Shape.rowMajor_val_two]
    show r.val * 10 + q.val = ((0 : ℕ) * 1024 + r.val) * 10 + q.val
    omega)).trans ?_
  rw [angle_at, blkProj_eq P0 P1 A W b s0 hs0 hP0 hP1]
  rfl

end Cert.KernelIdeal.Hand

end
-- ==== Proof.KernelArrays.lean ====
/-
  From blocks to arrays: after the kernel's run the two result arrays are the specification's state and angles.

  The grid has 8 x 4 points; point (bi, si) stages rows 1024 * si ... 1024 * si + 1023 of batch bi of the activations and the
  whole weight matrix, and writes back the same rows of batch bi of the state array and of the angles array. So what a point
  writes back is the specification's array read through that block, and the 32 blocks cover both result arrays: row s of
  batch b lies in the block of point (b, s / 1024).
-/
import proofs.«143464_j27161373180356_2_alg».proof.Proof.Gen.KernelIdeal.Value
import proofs.«143464_j27161373180356_2_alg».proof.Proof.KernelBody

noncomputable section

namespace Cert.KernelIdeal.Hand

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem zeros3 : (![0, 0, 0] : Fin 3 → Nat) = fun _ => 0 := funext fun a => by fin_cases a <;> rfl
theorem zeros2 : (![0, 0] : Fin 2 → Nat) = fun _ => 0 := funext fun a => by fin_cases a <;> rfl

/-- The block indices over the 32 grid points: the activation window and the two result windows move together along the batch
    and the row-block axes and stay at 0 on the last axis; the weight window stays at (0, 0). -/
theorem grid_facts : ∀ t : Fin cfg0.N,
    win0_0.index t (0 : Fin 3) = win0_2.index t (0 : Fin 3) ∧ win0_0.index t (1 : Fin 3) = win0_2.index t (1 : Fin 3)
    ∧ win0_0.index t (2 : Fin 3) = 0 ∧ win0_1.index t (0 : Fin 2) = 0 ∧ win0_1.index t (1 : Fin 2) = 0
    ∧ win0_3.index t (0 : Fin 3) = win0_2.index t (0 : Fin 3) ∧ win0_3.index t (1 : Fin 3) = win0_2.index t (1 : Fin 3)
    ∧ win0_3.index t (2 : Fin 3) = 0 ∧ win0_2.index t (2 : Fin 3) = 0
    ∧ win0_2.index t (0 : Fin 3) ≤ 7 ∧ win0_2.index t (1 : Fin 3) ≤ 3 :=
  (by decide +kernel : ∀ t : Fin grid0.N, _)

/-- Every (batch, row block) is some grid point's. -/
theorem grid_onto : ∀ (q0 : Fin 8) (q1 : Fin 4), ∃ t : Fin cfg0.N,
    win0_2.index t = ![q0.val, q1.val, 0] ∧ win0_3.index t = ![q0.val, q1.val, 0] :=
  (by decide +kernel : ∀ (q0 : Fin 8) (q1 : Fin 4), ∃ t : Fin grid0.N,
    win0_2.index t = ![q0.val, q1.val, 0] ∧ win0_3.index t = ![q0.val, q1.val, 0])

/-- The activation block at a point in batch b, row block sI: row r, lane k is activation (b, 1024 * sI + r, k). -/
theorem act_block (c : Dev nD) (t : Fin cfg0.N) (b : Fin 8) (sI : Fin 4) (hb : win0_2.index t (0 : Fin 3) = b.val)
    (hs : win0_2.index t (1 : Fin 3) = sI.val) (r : Fin 1024) (k : Fin 768) :
    (iblk m c 0 t : Vec Ideal S1x1024x768 .f32) (ix3 (0 : Fin 1) r k)
      = (m ((c : Thread nD τ).loc main_arg0) : S8x4096x768.Idx → EReal)
          (ix3 b (⟨sI.val * 1024 + r.val, by omega⟩ : Fin 4096) k) := by
  obtain ⟨e0, e1, e2, -⟩ := grid_facts t
  unfold iblk
  rw [View.read_apply]
  show V m c main_arg0 _ = m (c.tc.loc main_arg0) _
  unfold V
  refine congrArg _ (funext fun a => Fin.ext ?_)
  match a with
  | ⟨0, _⟩ => show win0_0.index t (0 : Fin 3) * 1 + 1 * (0 : ℕ) = b.val; omega
  | ⟨1, _⟩ => show win0_0.index t (1 : Fin 3) * 1024 + 1 * r.val = sI.val * 1024 + r.val; omega
  | ⟨2, _⟩ => show win0_0.index t (2 : Fin 3) * 768 + 1 * k.val = k.val; omega

/-- The weight block at any point is the whole weight matrix. -/
theorem weight_block (c : Dev nD) (t : Fin cfg0.N) (q : Fin 10) (k : Fin 768) :
    (iblk m c 1 t : Vec Ideal S10x768 .f32) (ix2 q k)
      = (m ((c : Thread nD τ).loc main_arg1) : S10x768.Idx → EReal) (ix2 q k) := by
  obtain ⟨-, -, -, e3, e4, -⟩ := grid_facts t
  unfold iblk
  rw [View.read_apply]
  show V m c main_arg1 _ = m (c.tc.loc main_arg1) _
  unfold V
  refine congrArg _ (funext fun a => Fin.ext ?_)
  match a with
  | ⟨0, _⟩ => show win0_1.index t (0 : Fin 2) * 10 + 1 * q.val = q.val; omega
  | ⟨1, _⟩ => show win0_1.index t (1 : Fin 2) * 768 + 1 * k.val = k.val; omega

/-- What a point writes back to the state array is the specification's state read through the point's block. -/
theorem flushed_state (c : Dev nD) (t : Fin cfg0.N) :
    (dats m 0 c).flushed 2 t = ((cfg0.win 2).blk t).view.read (Elt Ideal)
      (QSpec.stateG (m ((c : Thread nD τ).loc main_arg0)) (m ((c : Thread nD τ).loc main_arg1))) := by
  obtain ⟨e0, e1, e2, e3, e4, e5, e6, e7, e8, l0, l1⟩ := grid_facts t
  obtain ⟨b, sI, hb, hs⟩ : ∃ (b : Fin 8) (sI : Fin 4), win0_2.index t (0 : Fin 3) = b.val ∧ win0_2.index t (1 : Fin 3) = sI.val :=
    ⟨⟨win0_2.index t (0 : Fin 3), by omega⟩, ⟨win0_2.index t (1 : Fin 3), by omega⟩, rfl, rfl⟩
  rw [Value.flushed2]
  unfold out0_2
  rw [View.canon_unit_zero zeros3]
  simp only [View.ld_unit_zero (S := S1x1024x768) zeros3, View.ld_unit_zero (S := S10x768) zeros2]
  funext y
  have hy0 : (y 0).val < 1 := (y 0).isLt
  have hy1 : (y 1).val < 1024 := (y 1).isLt
  have hy2 : (y 2).val < 1024 := (y 2).isLt
  have hy : y = ix3 (0 : Fin 1) (⟨(y 1).val, hy1⟩ : Fin 1024) (⟨(y 2).val, hy2⟩ : Fin 1024) := funext fun a => Fin.ext (by
    match a with
    | ⟨0, _⟩ => show (y 0).val = 0; omega
    | ⟨1, _⟩ => rfl
    | ⟨2, _⟩ => rfl)
  have he : ((cfg0.win 2).blk t).view.emb y
      = ix3 b (⟨sI.val * 1024 + (y 1).val, by omega⟩ : Fin 4096) (⟨(y 2).val, hy2⟩ : Fin 1024) := funext fun a => Fin.ext (by
    match a with
    | ⟨0, _⟩ => show win0_2.index t (0 : Fin 3) * 1 + 1 * (y 0).val = b.val; omega
    | ⟨1, _⟩ => show win0_2.index t (1 : Fin 3) * 1024 + 1 * (y 1).val = sI.val * 1024 + (y 1).val; omega
    | ⟨2, _⟩ => show win0_2.index t (2 : Fin 3) * 1024 + 1 * (y 2).val = (y 2).val; omega)
  show bodyState (iblk m c 0 t) (iblk m c 1 t) y = QSpec.stateG _ _ (((cfg0.win 2).blk t).view.emb y)
  rw [he]
  refine (congrArg (bodyState (iblk m c 0 t) (iblk m c 1 t)) hy).trans ?_
  exact block_state (iblk m c 0 t) (iblk m c 1 t) _ _ b (sI.val * 1024) (by omega) (act_block m c t b sI hb hs)
    (weight_block m c t) ⟨(y 1).val, hy1⟩ ⟨(y 2).val, hy2⟩

/-- What a point writes back to the angles array is the specification's angles read through the point's block. -/
theorem flushed_angles (c : Dev nD) (t : Fin cfg0.N) :
    (dats m 0 c).flushed 3 t = ((cfg0.win 3).blk t).view.read (Elt Ideal)
      (QSpec.anglesG (m ((c : Thread nD τ).loc main_arg0)) (m ((c : Thread nD τ).loc main_arg1))) := by
  obtain ⟨e0, e1, e2, e3, e4, e5, e6, e7, e8, l0, l1⟩ := grid_facts t
  obtain ⟨b, sI, hb, hs⟩ : ∃ (b : Fin 8) (sI : Fin 4), win0_2.index t (0 : Fin 3) = b.val ∧ win0_2.index t (1 : Fin 3) = sI.val :=
    ⟨⟨win0_2.index t (0 : Fin 3), by omega⟩, ⟨win0_2.index t (1 : Fin 3), by omega⟩, rfl, rfl⟩
  rw [Value.flushed3]
  unfold out0_3
  rw [View.canon_unit_zero zeros3]
  simp only [View.ld_unit_zero (S := S1x1024x768) zeros3, View.ld_unit_zero (S := S10x768) zeros2]
  funext y
  have hy0 : (y 0).val < 1 := (y 0).isLt
  have hy1 : (y 1).val < 1024 := (y 1).isLt
  have hy2 : (y 2).val < 10 := (y 2).isLt
  have hy : y = ix3 (0 : Fin 1) (⟨(y 1).val, hy1⟩ : Fin 1024) (⟨(y 2).val, hy2⟩ : Fin 10) := funext fun a => Fin.ext (by
    match a with
    | ⟨0, _⟩ => show (y 0).val = 0; omega
    | ⟨1, _⟩ => rfl
    | ⟨2, _⟩ => rfl)
  have he : ((cfg0.win 3).blk t).view.emb y
      = ix3 b (⟨sI.val * 1024 + (y 1).val, by omega⟩ : Fin 4096) (⟨(y 2).val, hy2⟩ : Fin 10) := funext fun a => Fin.ext (by
    match a with
    | ⟨0, _⟩ => show win0_3.index t (0 : Fin 3) * 1 + 1 * (y 0).val = b.val; omega
    | ⟨1, _⟩ => show win0_3.index t (1 : Fin 3) * 1024 + 1 * (y 1).val = sI.val * 1024 + (y 1).val; omega
    | ⟨2, _⟩ => show win0_3.index t (2 : Fin 3) * 10 + 1 * (y 2).val = (y 2).val; omega)
  show k0_pay3 (iblk m c 0 t) (iblk m c 1 t) y = QSpec.anglesG _ _ (((cfg0.win 3).blk t).view.emb y)
  rw [he]
  refine (congrArg (k0_pay3 (iblk m c 0 t) (iblk m c 1 t)) hy).trans ?_
  exact block_angle (iblk m c 0 t) (iblk m c 1 t) _ _ b (sI.val * 1024) (by omega) (act_block m c t b sI hb hs)
    (weight_block m c t) ⟨(y 1).val, hy1⟩ ⟨(y 2).val, hy2⟩

/-- An index of the state array is in a point's block iff each coordinate is in the block's range on its axis. -/
theorem mem_state_block (t : Fin cfg0.N) (i : S8x4096x1024.Idx) :
    i ∈ ((cfg0.win 2).blk t).view.set ↔ ∀ a : Fin 3, win0_2.index t a * S1x1024x1024.size a ≤ (i a).val
      ∧ (i a).val < win0_2.index t a * S1x1024x1024.size a + S1x1024x1024.size a := by
  show i ∈ ((View.whole main_v0_0).slice (win0_2.rect t)).set ↔ _
  rw [View.set_slice_whole, Rect.mem_set_unit]
  exact Iff.rfl

/-- An index of the angles array is in a point's block iff each coordinate is in the block's range on its axis. -/
theorem mem_angles_block (t : Fin cfg0.N) (i : S8x4096x10.Idx) :
    i ∈ ((cfg0.win 3).blk t).view.set ↔ ∀ a : Fin 3, win0_3.index t a * S1x1024x10.size a ≤ (i a).val
      ∧ (i a).val < win0_3.index t a * S1x1024x10.size a + S1x1024x10.size a := by
  show i ∈ ((View.whole main_v0_1).slice (win0_3.rect t)).set ↔ _
  rw [View.set_slice_whole, Rect.mem_set_unit]
  exact Iff.rfl

/-- After the run the state array is the specification's. -/
theorem final_state (c : Dev nD) : (dats m 0 c).arrAt 2 cfg0.N
    = QSpec.stateG (m ((c : Thread nD τ).loc main_arg0)) (m ((c : Thread nD τ).loc main_arg1)) :=
  (dats m 0 c).arrAt_eq_of_cover 2 _ (fun t _ => flushed_state m c t) (fun i => by
    have hi0 : (i 0).val < 8 := (i 0).isLt
    have hi1 : (i 1).val < 4096 := (i 1).isLt
    have hi2 : (i 2).val < 1024 := (i 2).isLt
    obtain ⟨t, ht, -⟩ := grid_onto ⟨(i 0).val, hi0⟩ ⟨(i 1).val / 1024, by omega⟩
    have q0 : win0_2.index t (0 : Fin 3) = (i 0).val := congrFun ht 0
    have q1 : win0_2.index t (1 : Fin 3) = (i 1).val / 1024 := congrFun ht 1
    have q2 : win0_2.index t (2 : Fin 3) = 0 := congrFun ht 2
    refine ⟨t, flush0_2 t, ?_⟩
    rw [mem_state_block]
    intro a
    match a with
    | ⟨0, _⟩ => show win0_2.index t (0 : Fin 3) * 1 ≤ (i 0).val ∧ (i 0).val < win0_2.index t (0 : Fin 3) * 1 + 1; omega
    | ⟨1, _⟩ => show win0_2.index t (1 : Fin 3) * 1024 ≤ (i 1).val ∧ (i 1).val < win0_2.index t (1 : Fin 3) * 1024 + 1024; omega
    | ⟨2, _⟩ => show win0_2.index t (2 : Fin 3) * 1024 ≤ (i 2).val ∧ (i 2).val < win0_2.index t (2 : Fin 3) * 1024 + 1024; omega)

/-- After the run the angles array is the specification's. -/
theorem final_angles (c : Dev nD) : (dats m 0 c).arrAt 3 cfg0.N
    = QSpec.anglesG (m ((c : Thread nD τ).loc main_arg0)) (m ((c : Thread nD τ).loc main_arg1)) :=
  (dats m 0 c).arrAt_eq_of_cover 3 _ (fun t _ => flushed_angles m c t) (fun i => by
    have hi0 : (i 0).val < 8 := (i 0).isLt
    have hi1 : (i 1).val < 4096 := (i 1).isLt
    have hi2 : (i 2).val < 10 := (i 2).isLt
    obtain ⟨t, -, ht⟩ := grid_onto ⟨(i 0).val, hi0⟩ ⟨(i 1).val / 1024, by omega⟩
    have q0 : win0_3.index t (0 : Fin 3) = (i 0).val := congrFun ht 0
    have q1 : win0_3.index t (1 : Fin 3) = (i 1).val / 1024 := congrFun ht 1
    have q2 : win0_3.index t (2 : Fin 3) = 0 := congrFun ht 2
    refine ⟨t, flush0_3 t, ?_⟩
    rw [mem_angles_block]
    intro a
    match a with
    | ⟨0, _⟩ => show win0_3.index t (0 : Fin 3) * 1 ≤ (i 0).val ∧ (i 0).val < win0_3.index t (0 : Fin 3) * 1 + 1; omega
    | ⟨1, _⟩ => show win0_3.index t (1 : Fin 3) * 1024 ≤ (i 1).val ∧ (i 1).val < win0_3.index t (1 : Fin 3) * 1024 + 1024; omega
    | ⟨2, _⟩ => show win0_3.index t (2 : Fin 3) * 10 ≤ (i 2).val ∧ (i 2).val < win0_3.index t (2 : Fin 3) * 10 + 10; omega)

/-- The kernel's run, read: the two result arrays are the specification's state and angles of the argument arrays, and
    the arguments are unchanged. -/
theorem run : θ_run defs (onTc (τ := τ) (main (F := Ideal))) ⟨m, fun _ => 0, ρ⟩ fun r => ∀ c : Dev nD,
      r.2.mem ((c : Thread nD τ).loc main_v0_0)
        = QSpec.stateG (m ((c : Thread nD τ).loc main_arg0)) (m ((c : Thread nD τ).loc main_arg1))
      ∧ r.2.mem ((c : Thread nD τ).loc main_v0_1)
        = QSpec.anglesG (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final_state m c), (h c).2.1.trans (final_angles m c), (h c).2.2.1,
      (h c).2.2.2⟩)
    (Value.run_blocks m ρ)

end Cert.KernelIdeal.Hand

end
-- ==== Proof.RefAngles.lean ====
/-
  The reference's angles and half-angle amplitudes, entry by entry.

  The reference contracts the last axis of the activations with the last axis of the weights: at (b, s, q) the sum over k of
  A(b, s, k) * W(q, k); multiplies by 1 on the left; and takes the cosine and the sine of half of it, array-wide.
-/
import proofs.«143464_j27161373180356_2_alg».proof.Proof.Gen.ReferenceIdeal.Read
import proofs.«143464_j27161373180356_2_alg».proof.Proof.QSpec
import Idealize.ShloMosaic.Lib.Pipeline.Value
import Idealize.ShloMosaic.Lib.ValueIdx

noncomputable section

namespace Cert.ReferenceIdeal.Hand

open Cert.ReferenceIdeal Cert.ReferenceIdeal.Gen Cert.ReferenceIdeal.Read Idealize.ShloMosaic Idealize.ShloMosaic.ValueIdx
open scoped BigOperators

/-- The reference's angle at (b, s, q) is the specification's. -/
theorem angle_at (x0 : (⟨S8x4096x768, .f32⟩ : BufTy).Contents (Elt Ideal)) (x1 : (⟨S10x768, .f32⟩ : BufTy).Contents (Elt Ideal)) (b : Fin 8) (s : Fin 4096) (q : Fin 10) :
    val_main_v2 (F := Ideal) x0 x1 (ix3 b s q) = QSpec.angle x0 x1 b s q := by
  rw [val_main_v2_apply, val_main_v1_apply, val_main_cst_apply, val_main_v0_apply]
  unfold QSpec.angle QSpec.proj
  refine congrArg (QSpec.oneW * ·) (Finset.sum_congr rfl fun k _ => ?_)
  have el : lidx_main_v0 (ix3 b s q) k = ix3 b s k := funext fun a => Fin.ext (by
    match a with
    | ⟨0, _⟩ => rfl
    | ⟨1, _⟩ => rfl
    | ⟨2, _⟩ => rfl)
  have er : ridx_main_v0 (ix3 b s q) k = ix2 q k := funext fun a => Fin.ext (by
    match a with
    | ⟨0, _⟩ => rfl
    | ⟨1, _⟩ => rfl)
  rw [el, er]

/-- Half the angle. -/
theorem half_angle_at (x0 : (⟨S8x4096x768, .f32⟩ : BufTy).Contents (Elt Ideal)) (x1 : (⟨S10x768, .f32⟩ : BufTy).Contents (Elt Ideal)) (b : Fin 8) (s : Fin 4096) (q : Fin 10) :
    val_main_v4 (F := Ideal) x0 x1 (ix3 b s q) = QSpec.halfW * QSpec.angle x0 x1 b s q := by
  rw [val_main_v4_apply, val_main_v3_apply, val_main_cst_0_apply, angle_at]
  rfl

/-- The reference's cosine amplitude at (b, s, q) is the specification's. -/
theorem cos_at (x0 : (⟨S8x4096x768, .f32⟩ : BufTy).Contents (Elt Ideal)) (x1 : (⟨S10x768, .f32⟩ : BufTy).Contents (Elt Ideal)) (b : Fin 8) (s : Fin 4096) (q : Fin 10) :
    val_main_v5 (F := Ideal) x0 x1 (ix3 b s q) = QSpec.cosHalf x0 x1 b s q := by
  rw [val_main_v5_apply, half_angle_at]
  rfl

/-- The reference's sine amplitude at (b, s, q) is the specification's. -/
theorem sin_at (x0 : (⟨S8x4096x768, .f32⟩ : BufTy).Contents (Elt Ideal)) (x1 : (⟨S10x768, .f32⟩ : BufTy).Contents (Elt Ideal)) (b : Fin 8) (s : Fin 4096) (q : Fin 10) :
    val_main_v6 (F := Ideal) x0 x1 (ix3 b s q) = QSpec.sinHalf x0 x1 b s q := by
  rw [val_main_v6_apply, half_angle_at]
  rfl

end Cert.ReferenceIdeal.Hand

end
-- ==== Proof.RefPairs.lean ====
/-
  The reference's amplitude pairs.

  For each wire q the reference takes column q of the cosine and of the sine amplitudes, as [8, 4096, 1] arrays, and joins
  them along the last axis into a [8, 4096, 2] array: entry 0 is the cosine amplitude of the token on wire q, entry 1 the sine.
-/
import proofs.«143464_j27161373180356_2_alg».proof.Proof.Gen.ReferenceIdeal.Read
import Idealize.ShloMosaic.Lib.Pipeline.Value
import Idealize.ShloMosaic.Lib.ValueIdx

noncomputable section

namespace Cert.ReferenceIdeal.Hand

open Cert.ReferenceIdeal Cert.ReferenceIdeal.Gen Cert.ReferenceIdeal.Read Idealize.ShloMosaic Idealize.ShloMosaic.ValueIdx
open scoped BigOperators

/-- The amplitude pair of wire 0 at (b, s): entry 0 is the cosine amplitude, entry 1 the sine amplitude. -/
theorem pair0_at (x0 : (⟨S8x4096x768, .f32⟩ : BufTy).Contents (Elt Ideal)) (x1 : (⟨S10x768, .f32⟩ : BufTy).Contents (Elt Ideal)) (b : Fin 8) (s : Fin 4096) (e : Fin 2) :
    val_main_v14 (F := Ideal) x0 x1 (ix3 b s e)
      = if e.val = 0 then val_main_v5 (F := Ideal) x0 x1 (ix3 b s 0) else val_main_v6 (F := Ideal) x0 x1 (ix3 b s 0) := by
  unfold val_main_v14
  have hb := b.isLt; have hs := s.isLt; have he := e.isLt
  by_cases h0 : e.val = 0
  · rw [if_pos h0]
    refine (concatenate_pair_apply_left (t := S8x4096x2) (s₁ := S8x4096x1) (s₂ := S8x4096x1) 2
      (val_main_v12 (F := Ideal) x0 x1) (val_main_v13 (F := Ideal) x0 x1) concatenates_S8x4096x1_S8x4096x1_S8x4096x2_d2
      (ix3 b s e) rfl (ix3 b s (0 : Fin 1)) (fun a => ?_)).trans ?_
    · match a with
      | ⟨0, _⟩ => rfl
      | ⟨1, _⟩ => rfl
      | ⟨2, _⟩ => show (0 : ℕ) = e.val; omega
    · rw [val_main_v12_apply, val_main_v9_apply, val_main_v8_apply]
      refine congrArg _ (funext fun a => Fin.ext ?_)
      match a with
      | ⟨0, _⟩ => show (b.val * 4096 + s.val) / 4096 = b.val; omega
      | ⟨1, _⟩ => show (b.val * 4096 + s.val) / 1 % 4096 = s.val; omega
      | ⟨2, _⟩ => show (0 : ℕ) = 0; rfl
  · rw [if_neg h0]
    refine (concatenate_pair_apply_right (t := S8x4096x2) (s₁ := S8x4096x1) (s₂ := S8x4096x1) 2
      (val_main_v12 (F := Ideal) x0 x1) (val_main_v13 (F := Ideal) x0 x1) concatenates_S8x4096x1_S8x4096x1_S8x4096x2_d2
      (ix3 b s e) rfl rfl (ix3 b s (0 : Fin 1)) (fun a ha => ?_) ?_).trans ?_
    · match a with
      | ⟨0, _⟩ => rfl
      | ⟨1, _⟩ => rfl
      | ⟨2, _⟩ => exact absurd (Fin.ext rfl) ha
    · show (0 : ℕ) + 1 = e.val; omega
    · rw [val_main_v13_apply, val_main_v11_apply, val_main_v10_apply]
      refine congrArg _ (funext fun a => Fin.ext ?_)
      match a with
      | ⟨0, _⟩ => show (b.val * 4096 + s.val) / 4096 = b.val; omega
      | ⟨1, _⟩ => show (b.val * 4096 + s.val) / 1 % 4096 = s.val; omega
      | ⟨2, _⟩ => show (0 : ℕ) = 0; rfl

/-- The amplitude pair of wire 1 at (b, s): entry 0 is the cosine amplitude, entry 1 the sine amplitude. -/
theorem pair1_at (x0 : (⟨S8x4096x768, .f32⟩ : BufTy).Contents (Elt Ideal)) (x1 : (⟨S10x768, .f32⟩ : BufTy).Contents (Elt Ideal)) (b : Fin 8) (s : Fin 4096) (e : Fin 2) :
    val_main_v26 (F := Ideal) x0 x1 (ix3 b s e)
      = if e.val = 0 then val_main_v5 (F := Ideal) x0 x1 (ix3 b s 1) else val_main_v6 (F := Ideal) x0 x1 (ix3 b s 1) := by
  unfold val_main_v26
  have hb := b.isLt; have hs := s.isLt; have he := e.isLt
  by_cases h0 : e.val = 0
  · rw [if_pos h0]
    refine (concatenate_pair_apply_left (t := S8x4096x2) (s₁ := S8x4096x1) (s₂ := S8x4096x1) 2
      (val_main_v24 (F := Ideal) x0 x1) (val_main_v25 (F := Ideal) x0 x1) concatenates_S8x4096x1_S8x4096x1_S8x4096x2_d2
      (ix3 b s e) rfl (ix3 b s (0 : Fin 1)) (fun a => ?_)).trans ?_
    · match a with
      | ⟨0, _⟩ => rfl
      | ⟨1, _⟩ => rfl
      | ⟨2, _⟩ => show (0 : ℕ) = e.val; omega
    · rw [val_main_v24_apply, val_main_v21_apply, val_main_v20_apply]
      refine congrArg _ (funext fun a => Fin.ext ?_)
      match a with
      | ⟨0, _⟩ => show (b.val * 4096 + s.val) / 4096 = b.val; omega
      | ⟨1, _⟩ => show (b.val * 4096 + s.val) / 1 % 4096 = s.val; omega
      | ⟨2, _⟩ => show 1 + 0 = 1; rfl
  · rw [if_neg h0]
    refine (concatenate_pair_apply_right (t := S8x4096x2) (s₁ := S8x4096x1) (s₂ := S8x4096x1) 2
      (val_main_v24 (F := Ideal) x0 x1) (val_main_v25 (F := Ideal) x0 x1) concatenates_S8x4096x1_S8x4096x1_S8x4096x2_d2
      (ix3 b s e) rfl rfl (ix3 b s (0 : Fin 1)) (fun a ha => ?_) ?_).trans ?_
    · match a with
      | ⟨0, _⟩ => rfl
      | ⟨1, _⟩ => rfl
      | ⟨2, _⟩ => exact absurd (Fin.ext rfl) ha
    · show (0 : ℕ) + 1 = e.val; omega
    · rw [val_main_v25_apply, val_main_v23_apply, val_main_v22_apply]
      refine congrArg _ (funext fun a => Fin.ext ?_)
      match a with
      | ⟨0, _⟩ => show (b.val * 4096 + s.val) / 4096 = b.val; omega
      | ⟨1, _⟩ => show (b.val * 4096 + s.val) / 1 % 4096 = s.val; omega
      | ⟨2, _⟩ => show 1 + 0 = 1; rfl

/-- The amplitude pair of wire 2 at (b, s): entry 0 is the cosine amplitude, entry 1 the sine amplitude. -/
theorem pair2_at (x0 : (⟨S8x4096x768, .f32⟩ : BufTy).Contents (Elt Ideal)) (x1 : (⟨S10x768, .f32⟩ : BufTy).Contents (Elt Ideal)) (b : Fin 8) (s : Fin 4096) (e : Fin 2) :
    val_main_v39 (F := Ideal) x0 x1 (ix3 b s e)
      = if e.val = 0 then val_main_v5 (F := Ideal) x0 x1 (ix3 b s 2) else val_main_v6 (F := Ideal) x0 x1 (ix3 b s 2) := by
  unfold val_main_v39
  have hb := b.isLt; have hs := s.isLt; have he := e.isLt
  by_cases h0 : e.val = 0
  · rw [if_pos h0]
    refine (concatenate_pair_apply_left (t := S8x4096x2) (s₁ := S8x4096x1) (s₂ := S8x4096x1) 2
      (val_main_v37 (F := Ideal) x0 x1) (val_main_v38 (F := Ideal) x0 x1) concatenates_S8x4096x1_S8x4096x1_S8x4096x2_d2
      (ix3 b s e) rfl (ix3 b s (0 : Fin 1)) (fun a => ?_)).trans ?_
    · match a with
      | ⟨0, _⟩ => rfl
      | ⟨1, _⟩ => rfl
      | ⟨2, _⟩ => show (0 : ℕ) = e.val; omega
    · rw [val_main_v37_apply, val_main_v34_apply, val_main_v33_apply]
      refine congrArg _ (funext fun a => Fin.ext ?_)
      match a with
      | ⟨0, _⟩ => show (b.val * 4096 + s.val) / 4096 = b.val; omega
      | ⟨1, _⟩ => show (b.val * 4096 + s.val) / 1 % 4096 = s.val; omega
      | ⟨2, _⟩ => show 2 + 0 = 2; rfl
  · rw [if_neg h0]
    refine (concatenate_pair_apply_right (t := S8x4096x2) (s₁ := S8x4096x1) (s₂ := S8x4096x1) 2
      (val_main_v37 (F := Ideal) x0 x1) (val_main_v38 (F := Ideal) x0 x1) concatenates_S8x4096x1_S8x4096x1_S8x4096x2_d2
      (ix3 b s e) rfl rfl (ix3 b s (0 : Fin 1)) (fun a ha => ?_) ?_).trans ?_
    · match a with
      | ⟨0, _⟩ => rfl
      | ⟨1, _⟩ => rfl
      | ⟨2, _⟩ => exact absurd (Fin.ext rfl) ha
    · show (0 : ℕ) + 1 = e.val; omega
    · rw [val_main_v38_apply, val_main_v36_apply, val_main_v35_apply]
      refine congrArg _ (funext fun a => Fin.ext ?_)
      match a with
      | ⟨0, _⟩ => show (b.val * 4096 + s.val) / 4096 = b.val; omega
      | ⟨1, _⟩ => show (b.val * 4096 + s.val) / 1 % 4096 = s.val; omega
      | ⟨2, _⟩ => show 2 + 0 = 2; rfl

/-- The amplitude pair of wire 3 at (b, s): entry 0 is the cosine amplitude, entry 1 the sine amplitude. -/
theorem pair3_at (x0 : (⟨S8x4096x768, .f32⟩ : BufTy).Contents (Elt Ideal)) (x1 : (⟨S10x768, .f32⟩ : BufTy).Contents (Elt Ideal)) (b : Fin 8) (s : Fin 4096) (e : Fin 2) :
    val_main_v52 (F := Ideal) x0 x1 (ix3 b s e)
      = if e.val = 0 then val_main_v5 (F := Ideal) x0 x1 (ix3 b s 3) else val_main_v6 (F := Ideal) x0 x1 (ix3 b s 3) := by
  unfold val_main_v52
  have hb := b.isLt; have hs := s.isLt; have he := e.isLt
  by_cases h0 : e.val = 0
  · rw [if_pos h0]
    refine (concatenate_pair_apply_left (t := S8x4096x2) (s₁ := S8x4096x1) (s₂ := S8x4096x1) 2
      (val_main_v50 (F := Ideal) x0 x1) (val_main_v51 (F := Ideal) x0 x1) concatenates_S8x4096x1_S8x4096x1_S8x4096x2_d2
      (ix3 b s e) rfl (ix3 b s (0 : Fin 1)) (fun a => ?_)).trans ?_
    · match a with
      | ⟨0, _⟩ => rfl
      | ⟨1, _⟩ => rfl
      | ⟨2, _⟩ => show (0 : ℕ) = e.val; omega
    · rw [val_main_v50_apply, val_main_v47_apply, val_main_v46_apply]
      refine congrArg _ (funext fun a => Fin.ext ?_)
      match a with
      | ⟨0, _⟩ => show (b.val * 4096 + s.val) / 4096 = b.val; omega
      | ⟨1, _⟩ => show (b.val * 4096 + s.val) / 1 % 4096 = s.val; omega
      | ⟨2, _⟩ => show 3 + 0 = 3; rfl
  · rw [if_neg h0]
    refine (concatenate_pair_apply_right (t := S8x4096x2) (s₁ := S8x4096x1) (s₂ := S8x4096x1) 2
      (val_main_v50 (F := Ideal) x0 x1) (val_main_v51 (F := Ideal) x0 x1) concatenates_S8x4096x1_S8x4096x1_S8x4096x2_d2
      (ix3 b s e) rfl rfl (ix3 b s (0 : Fin 1)) (fun a ha => ?_) ?_).trans ?_
    · match a with
      | ⟨0, _⟩ => rfl
      | ⟨1, _⟩ => rfl
      | ⟨2, _⟩ => exact absurd (Fin.ext rfl) ha
    · show (0 : ℕ) + 1 = e.val; omega
    · rw [val_main_v51_apply, val_main_v49_apply, val_main_v48_apply]
      refine congrArg _ (funext fun a => Fin.ext ?_)
      match a with
      | ⟨0, _⟩ => show (b.val * 4096 + s.val) / 4096 = b.val; omega
      | ⟨1, _⟩ => show (b.val * 4096 + s.val) / 1 % 4096 = s.val; omega
      | ⟨2, _⟩ => show 3 + 0 = 3; rfl

/-- The amplitude pair of wire 4 at (b, s): entry 0 is the cosine amplitude, entry 1 the sine amplitude. -/
theorem pair4_at (x0 : (⟨S8x4096x768, .f32⟩ : BufTy).Contents (Elt Ideal)) (x1 : (⟨S10x768, .f32⟩ : BufTy).Contents (Elt Ideal)) (b : Fin 8) (s : Fin 4096) (e : Fin 2) :
    val_main_v65 (F := Ideal) x0 x1 (ix3 b s e)
      = if e.val = 0 then val_main_v5 (F := Ideal) x0 x1 (ix3 b s 4) else val_main_v6 (F := Ideal) x0 x1 (ix3 b s 4) := by
  unfold val_main_v65
  have hb := b.isLt; have hs := s.isLt; have he := e.isLt
  by_cases h0 : e.val = 0
  · rw [if_pos h0]
    refine (concatenate_pair_apply_left (t := S8x4096x2) (s₁ := S8x4096x1) (s₂ := S8x4096x1) 2
      (val_main_v63 (F := Ideal) x0 x1) (val_main_v64 (F := Ideal) x0 x1) concatenates_S8x4096x1_S8x4096x1_S8x4096x2_d2
      (ix3 b s e) rfl (ix3 b s (0 : Fin 1)) (fun a => ?_)).trans ?_
    · match a with
      | ⟨0, _⟩ => rfl
      | ⟨1, _⟩ => rfl
      | ⟨2, _⟩ => show (0 : ℕ) = e.val; omega
    · rw [val_main_v63_apply, val_main_v60_apply, val_main_v59_apply]
      refine congrArg _ (funext fun a => Fin.ext ?_)
      match a with
      | ⟨0, _⟩ => show (b.val * 4096 + s.val) / 4096 = b.val; omega
      | ⟨1, _⟩ => show (b.val * 4096 + s.val) / 1 % 4096 = s.val; omega
      | ⟨2, _⟩ => show 4 + 0 = 4; rfl
  · rw [if_neg h0]
    refine (concatenate_pair_apply_right (t := S8x4096x2) (s₁ := S8x4096x1) (s₂ := S8x4096x1) 2
      (val_main_v63 (F := Ideal) x0 x1) (val_main_v64 (F := Ideal) x0 x1) concatenates_S8x4096x1_S8x4096x1_S8x4096x2_d2
      (ix3 b s e) rfl rfl (ix3 b s (0 : Fin 1)) (fun a ha => ?_) ?_).trans ?_
    · match a with
      | ⟨0, _⟩ => rfl
      | ⟨1, _⟩ => rfl
      | ⟨2, _⟩ => exact absurd (Fin.ext rfl) ha
    · show (0 : ℕ) + 1 = e.val; omega
    · rw [val_main_v64_apply, val_main_v62_apply, val_main_v61_apply]
      refine congrArg _ (funext fun a => Fin.ext ?_)
      match a with
      | ⟨0, _⟩ => show (b.val * 4096 + s.val) / 4096 = b.val; omega
      | ⟨1, _⟩ => show (b.val * 4096 + s.val) / 1 % 4096 = s.val; omega
      | ⟨2, _⟩ => show 4 + 0 = 4; rfl

/-- The amplitude pair of wire 5 at (b, s): entry 0 is the cosine amplitude, entry 1 the sine amplitude. -/
theorem pair5_at (x0 : (⟨S8x4096x768, .f32⟩ : BufTy).Contents (Elt Ideal)) (x1 : (⟨S10x768, .f32⟩ : BufTy).Contents (Elt Ideal)) (b : Fin 8) (s : Fin 4096) (e : Fin 2) :
    val_main_v78 (F := Ideal) x0 x1 (ix3 b s e)
      = if e.val = 0 then val_main_v5 (F := Ideal) x0 x1 (ix3 b s 5) else val_main_v6 (F := Ideal) x0 x1 (ix3 b s 5) := by
  unfold val_main_v78
  have hb := b.isLt; have hs := s.isLt; have he := e.isLt
  by_cases h0 : e.val = 0
  · rw [if_pos h0]
    refine (concatenate_pair_apply_left (t := S8x4096x2) (s₁ := S8x4096x1) (s₂ := S8x4096x1) 2
      (val_main_v76 (F := Ideal) x0 x1) (val_main_v77 (F := Ideal) x0 x1) concatenates_S8x4096x1_S8x4096x1_S8x4096x2_d2
      (ix3 b s e) rfl (ix3 b s (0 : Fin 1)) (fun a => ?_)).trans ?_
    · match a with
      | ⟨0, _⟩ => rfl
      | ⟨1, _⟩ => rfl
      | ⟨2, _⟩ => show (0 : ℕ) = e.val; omega
    · rw [val_main_v76_apply, val_main_v73_apply, val_main_v72_apply]
      refine congrArg _ (funext fun a => Fin.ext ?_)
      match a with
      | ⟨0, _⟩ => show (b.val * 4096 + s.val) / 4096 = b.val; omega
      | ⟨1, _⟩ => show (b.val * 4096 + s.val) / 1 % 4096 = s.val; omega
      | ⟨2, _⟩ => show 5 + 0 = 5; rfl
  · rw [if_neg h0]
    refine (concatenate_pair_apply_right (t := S8x4096x2) (s₁ := S8x4096x1) (s₂ := S8x4096x1) 2
      (val_main_v76 (F := Ideal) x0 x1) (val_main_v77 (F := Ideal) x0 x1) concatenates_S8x4096x1_S8x4096x1_S8x4096x2_d2
      (ix3 b s e) rfl rfl (ix3 b s (0 : Fin 1)) (fun a ha => ?_) ?_).trans ?_
    · match a with
      | ⟨0, _⟩ => rfl
      | ⟨1, _⟩ => rfl
      | ⟨2, _⟩ => exact absurd (Fin.ext rfl) ha
    · show (0 : ℕ) + 1 = e.val; omega
    · rw [val_main_v77_apply, val_main_v75_apply, val_main_v74_apply]
      refine congrArg _ (funext fun a => Fin.ext ?_)
      match a with
      | ⟨0, _⟩ => show (b.val * 4096 + s.val) / 4096 = b.val; omega
      | ⟨1, _⟩ => show (b.val * 4096 + s.val) / 1 % 4096 = s.val; omega
      | ⟨2, _⟩ => show 5 + 0 = 5; rfl

/-- The amplitude pair of wire 6 at (b, s): entry 0 is the cosine amplitude, entry 1 the sine amplitude. -/
theorem pair6_at (x0 : (⟨S8x4096x768, .f32⟩ : BufTy).Contents (Elt Ideal)) (x1 : (⟨S10x768, .f32⟩ : BufTy).Contents (Elt Ideal)) (b : Fin 8) (s : Fin 4096) (e : Fin 2) :
    val_main_v91 (F := Ideal) x0 x1 (ix3 b s e)
      = if e.val = 0 then val_main_v5 (F := Ideal) x0 x1 (ix3 b s 6) else val_main_v6 (F := Ideal) x0 x1 (ix3 b s 6) := by
  unfold val_main_v91
  have hb := b.isLt; have hs := s.isLt; have he := e.isLt
  by_cases h0 : e.val = 0
  · rw [if_pos h0]
    refine (concatenate_pair_apply_left (t := S8x4096x2) (s₁ := S8x4096x1) (s₂ := S8x4096x1) 2
      (val_main_v89 (F := Ideal) x0 x1) (val_main_v90 (F := Ideal) x0 x1) concatenates_S8x4096x1_S8x4096x1_S8x4096x2_d2
      (ix3 b s e) rfl (ix3 b s (0 : Fin 1)) (fun a => ?_)).trans ?_
    · match a with
      | ⟨0, _⟩ => rfl
      | ⟨1, _⟩ => rfl
      | ⟨2, _⟩ => show (0 : ℕ) = e.val; omega
    · rw [val_main_v89_apply, val_main_v86_apply, val_main_v85_apply]
      refine congrArg _ (funext fun a => Fin.ext ?_)
      match a with
      | ⟨0, _⟩ => show (b.val * 4096 + s.val) / 4096 = b.val; omega
      | ⟨1, _⟩ => show (b.val * 4096 + s.val) / 1 % 4096 = s.val; omega
      | ⟨2, _⟩ => show 6 + 0 = 6; rfl
  · rw [if_neg h0]
    refine (concatenate_pair_apply_right (t := S8x4096x2) (s₁ := S8x4096x1) (s₂ := S8x4096x1) 2
      (val_main_v89 (F := Ideal) x0 x1) (val_main_v90 (F := Ideal) x0 x1) concatenates_S8x4096x1_S8x4096x1_S8x4096x2_d2
      (ix3 b s e) rfl rfl (ix3 b s (0 : Fin 1)) (fun a ha => ?_) ?_).trans ?_
    · match a with
      | ⟨0, _⟩ => rfl
      | ⟨1, _⟩ => rfl
      | ⟨2, _⟩ => exact absurd (Fin.ext rfl) ha
    · show (0 : ℕ) + 1 = e.val; omega
    · rw [val_main_v90_apply, val_main_v88_apply, val_main_v87_apply]
      refine congrArg _ (funext fun a => Fin.ext ?_)
      match a with
      | ⟨0, _⟩ => show (b.val * 4096 + s.val) / 4096 = b.val; omega
      | ⟨1, _⟩ => show (b.val * 4096 + s.val) / 1 % 4096 = s.val; omega
      | ⟨2, _⟩ => show 6 + 0 = 6; rfl

/-- The amplitude pair of wire 7 at (b, s): entry 0 is the cosine amplitude, entry 1 the sine amplitude. -/
theorem pair7_at (x0 : (⟨S8x4096x768, .f32⟩ : BufTy).Contents (Elt Ideal)) (x1 : (⟨S10x768, .f32⟩ : BufTy).Contents (Elt Ideal)) (b : Fin 8) (s : Fin 4096) (e : Fin 2) :
    val_main_v104 (F := Ideal) x0 x1 (ix3 b s e)
      = if e.val = 0 then val_main_v5 (F := Ideal) x0 x1 (ix3 b s 7) else val_main_v6 (F := Ideal) x0 x1 (ix3 b s 7) := by
  unfold val_main_v104
  have hb := b.isLt; have hs := s.isLt; have he := e.isLt
  by_cases h0 : e.val = 0
  · rw [if_pos h0]
    refine (concatenate_pair_apply_left (t := S8x4096x2) (s₁ := S8x4096x1) (s₂ := S8x4096x1) 2
      (val_main_v102 (F := Ideal) x0 x1) (val_main_v103 (F := Ideal) x0 x1) concatenates_S8x4096x1_S8x4096x1_S8x4096x2_d2
      (ix3 b s e) rfl (ix3 b s (0 : Fin 1)) (fun a => ?_)).trans ?_
    · match a with
      | ⟨0, _⟩ => rfl
      | ⟨1, _⟩ => rfl
      | ⟨2, _⟩ => show (0 : ℕ) = e.val; omega
    · rw [val_main_v102_apply, val_main_v99_apply, val_main_v98_apply]
      refine congrArg _ (funext fun a => Fin.ext ?_)
      match a with
      | ⟨0, _⟩ => show (b.val * 4096 + s.val) / 4096 = b.val; omega
      | ⟨1, _⟩ => show (b.val * 4096 + s.val) / 1 % 4096 = s.val; omega
      | ⟨2, _⟩ => show 7 + 0 = 7; rfl
  · rw [if_neg h0]
    refine (concatenate_pair_apply_right (t := S8x4096x2) (s₁ := S8x4096x1) (s₂ := S8x4096x1) 2
      (val_main_v102 (F := Ideal) x0 x1) (val_main_v103 (F := Ideal) x0 x1) concatenates_S8x4096x1_S8x4096x1_S8x4096x2_d2
      (ix3 b s e) rfl rfl (ix3 b s (0 : Fin 1)) (fun a ha => ?_) ?_).trans ?_
    · match a with
      | ⟨0, _⟩ => rfl
      | ⟨1, _⟩ => rfl
      | ⟨2, _⟩ => exact absurd (Fin.ext rfl) ha
    · show (0 : ℕ) + 1 = e.val; omega
    · rw [val_main_v103_apply, val_main_v101_apply, val_main_v100_apply]
      refine congrArg _ (funext fun a => Fin.ext ?_)
      match a with
      | ⟨0, _⟩ => show (b.val * 4096 + s.val) / 4096 = b.val; omega
      | ⟨1, _⟩ => show (b.val * 4096 + s.val) / 1 % 4096 = s.val; omega
      | ⟨2, _⟩ => show 7 + 0 = 7; rfl

/-- The amplitude pair of wire 8 at (b, s): entry 0 is the cosine amplitude, entry 1 the sine amplitude. -/
theorem pair8_at (x0 : (⟨S8x4096x768, .f32⟩ : BufTy).Contents (Elt Ideal)) (x1 : (⟨S10x768, .f32⟩ : BufTy).Contents (Elt Ideal)) (b : Fin 8) (s : Fin 4096) (e : Fin 2) :
    val_main_v117 (F := Ideal) x0 x1 (ix3 b s e)
      = if e.val = 0 then val_main_v5 (F := Ideal) x0 x1 (ix3 b s 8) else val_main_v6 (F := Ideal) x0 x1 (ix3 b s 8) := by
  unfold val_main_v117
  have hb := b.isLt; have hs := s.isLt; have he := e.isLt
  by_cases h0 : e.val = 0
  · rw [if_pos h0]
    refine (concatenate_pair_apply_left (t := S8x4096x2) (s₁ := S8x4096x1) (s₂ := S8x4096x1) 2
      (val_main_v115 (F := Ideal) x0 x1) (val_main_v116 (F := Ideal) x0 x1) concatenates_S8x4096x1_S8x4096x1_S8x4096x2_d2
      (ix3 b s e) rfl (ix3 b s (0 : Fin 1)) (fun a => ?_)).trans ?_
    · match a with
      | ⟨0, _⟩ => rfl
      | ⟨1, _⟩ => rfl
      | ⟨2, _⟩ => show (0 : ℕ) = e.val; omega
    · rw [val_main_v115_apply, val_main_v112_apply, val_main_v111_apply]
      refine congrArg _ (funext fun a => Fin.ext ?_)
      match a with
      | ⟨0, _⟩ => show (b.val * 4096 + s.val) / 4096 = b.val; omega
      | ⟨1, _⟩ => show (b.val * 4096 + s.val) / 1 % 4096 = s.val; omega
      | ⟨2, _⟩ => show 8 + 0 = 8; rfl
  · rw [if_neg h0]
    refine (concatenate_pair_apply_right (t := S8x4096x2) (s₁ := S8x4096x1) (s₂ := S8x4096x1) 2
      (val_main_v115 (F := Ideal) x0 x1) (val_main_v116 (F := Ideal) x0 x1) concatenates_S8x4096x1_S8x4096x1_S8x4096x2_d2
      (ix3 b s e) rfl rfl (ix3 b s (0 : Fin 1)) (fun a ha => ?_) ?_).trans ?_
    · match a with
      | ⟨0, _⟩ => rfl
      | ⟨1, _⟩ => rfl
      | ⟨2, _⟩ => exact absurd (Fin.ext rfl) ha
    · show (0 : ℕ) + 1 = e.val; omega
    · rw [val_main_v116_apply, val_main_v114_apply, val_main_v113_apply]
      refine congrArg _ (funext fun a => Fin.ext ?_)
      match a with
      | ⟨0, _⟩ => show (b.val * 4096 + s.val) / 4096 = b.val; omega
      | ⟨1, _⟩ => show (b.val * 4096 + s.val) / 1 % 4096 = s.val; omega
      | ⟨2, _⟩ => show 8 + 0 = 8; rfl

/-- The amplitude pair of wire 9 at (b, s): entry 0 is the cosine amplitude, entry 1 the sine amplitude. -/
theorem pair9_at (x0 : (⟨S8x4096x768, .f32⟩ : BufTy).Contents (Elt Ideal)) (x1 : (⟨S10x768, .f32⟩ : BufTy).Contents (Elt Ideal)) (b : Fin 8) (s : Fin 4096) (e : Fin 2) :
    val_main_v130 (F := Ideal) x0 x1 (ix3 b s e)
      = if e.val = 0 then val_main_v5 (F := Ideal) x0 x1 (ix3 b s 9) else val_main_v6 (F := Ideal) x0 x1 (ix3 b s 9) := by
  unfold val_main_v130
  have hb := b.isLt; have hs := s.isLt; have he := e.isLt
  by_cases h0 : e.val = 0
  · rw [if_pos h0]
    refine (concatenate_pair_apply_left (t := S8x4096x2) (s₁ := S8x4096x1) (s₂ := S8x4096x1) 2
      (val_main_v128 (F := Ideal) x0 x1) (val_main_v129 (F := Ideal) x0 x1) concatenates_S8x4096x1_S8x4096x1_S8x4096x2_d2
      (ix3 b s e) rfl (ix3 b s (0 : Fin 1)) (fun a => ?_)).trans ?_
    · match a with
      | ⟨0, _⟩ => rfl
      | ⟨1, _⟩ => rfl
      | ⟨2, _⟩ => show (0 : ℕ) = e.val; omega
    · rw [val_main_v128_apply, val_main_v125_apply, val_main_v124_apply]
      refine congrArg _ (funext fun a => Fin.ext ?_)
      match a with
      | ⟨0, _⟩ => show (b.val * 4096 + s.val) / 4096 = b.val; omega
      | ⟨1, _⟩ => show (b.val * 4096 + s.val) / 1 % 4096 = s.val; omega
      | ⟨2, _⟩ => show 9 + 0 = 9; rfl
  · rw [if_neg h0]
    refine (concatenate_pair_apply_right (t := S8x4096x2) (s₁ := S8x4096x1) (s₂ := S8x4096x1) 2
      (val_main_v128 (F := Ideal) x0 x1) (val_main_v129 (F := Ideal) x0 x1) concatenates_S8x4096x1_S8x4096x1_S8x4096x2_d2
      (ix3 b s e) rfl rfl (ix3 b s (0 : Fin 1)) (fun a ha => ?_) ?_).trans ?_
    · match a with
      | ⟨0, _⟩ => rfl
      | ⟨1, _⟩ => rfl
      | ⟨2, _⟩ => exact absurd (Fin.ext rfl) ha
    · show (0 : ℕ) + 1 = e.val; omega
    · rw [val_main_v129_apply, val_main_v127_apply, val_main_v126_apply]
      refine congrArg _ (funext fun a => Fin.ext ?_)
      match a with
      | ⟨0, _⟩ => show (b.val * 4096 + s.val) / 4096 = b.val; omega
      | ⟨1, _⟩ => show (b.val * 4096 + s.val) / 1 % 4096 = s.val; omega
      | ⟨2, _⟩ => show 9 + 0 = 9; rfl

end Cert.ReferenceIdeal.Hand

end
-- ==== Proof.RefSteps.lean ====
/-
  The reference's ten Kronecker steps.

  The reference keeps the state of the first wires as a [8, 4096, n] array, n = 2^q after q wires, starting from [8, 4096, 1]
  all ones. To add wire q it multiplies every entry with both entries of the wire's pair — an [.., n, 1] times [.., 1, 2]
  product — and flattens [.., n, 2] to [.., 2n]: row-major, so new entry i is old entry i / 2 times pair entry i % 2.
-/
import proofs.«143464_j27161373180356_2_alg».proof.Proof.Gen.ReferenceIdeal.Read
import proofs.«143464_j27161373180356_2_alg».proof.Proof.QSpec
import Idealize.ShloMosaic.Lib.Pipeline.Value
import Idealize.ShloMosaic.Lib.ValueIdx

noncomputable section

namespace Cert.ReferenceIdeal.Hand

open Cert.ReferenceIdeal Cert.ReferenceIdeal.Gen Cert.ReferenceIdeal.Read Idealize.ShloMosaic Idealize.ShloMosaic.ValueIdx
open scoped BigOperators

/-- Wire 0 multiplied into the all-ones start: entry i of the 2 amplitudes is 1 times entry i of wire 0's pair. -/
theorem step0_at (x0 : (⟨S8x4096x768, .f32⟩ : BufTy).Contents (Elt Ideal)) (x1 : (⟨S10x768, .f32⟩ : BufTy).Contents (Elt Ideal)) (b : Fin 8) (s : Fin 4096) (i : Fin 2) :
    val_main_v19 (F := Ideal) x0 x1 (ix3 b s i) = QSpec.oneW * val_main_v14 (F := Ideal) x0 x1 (ix3 b s i) := by
  have hb := b.isLt; have hs := s.isLt; have hi := i.isLt
  rw [val_main_v19_apply, val_main_v18_apply, val_main_v17_apply, val_main_v15_apply, val_main_v7_apply, val_main_cst_1_apply,
    val_main_v16_apply]
  have e2 : idx_main_v16 (idx_main_v19 (ix3 b s i)) = ix3 b s i :=
    funext fun a => Fin.ext (by
      match a with
      | ⟨0, _⟩ => show ((b.val * 4096 + s.val) * 2 + i.val) / 8192 = b.val; omega
      | ⟨1, _⟩ => show ((b.val * 4096 + s.val) * 2 + i.val) / 2 % 4096 = s.val; omega
      | ⟨2, _⟩ => show ((b.val * 4096 + s.val) * 2 + i.val) % 2 = i.val; omega)
  rw [e2]
  rfl

/-- Wire 1 multiplied in: entry i of the 4 amplitudes is entry i / 2 of the 2 before, times entry i % 2 of wire 1's pair. -/
theorem step1_at (x0 : (⟨S8x4096x768, .f32⟩ : BufTy).Contents (Elt Ideal)) (x1 : (⟨S10x768, .f32⟩ : BufTy).Contents (Elt Ideal)) (b : Fin 8) (s : Fin 4096) (i : Fin 4) :
    val_main_v32 (F := Ideal) x0 x1 (ix3 b s i)
      = val_main_v19 (F := Ideal) x0 x1 (ix3 b s (⟨i.val / 2, by omega⟩ : Fin 2))
        * val_main_v26 (F := Ideal) x0 x1 (ix3 b s (⟨i.val % 2, by omega⟩ : Fin 2)) := by
  have hb := b.isLt; have hs := s.isLt; have hi := i.isLt
  rw [val_main_v32_apply, val_main_v31_apply, val_main_v29_apply, val_main_v27_apply, val_main_v30_apply,
    val_main_v28_apply]
  have e1 : idx_main_v27 (idx_main_v29 (idx_main_v32 (ix3 b s i))) = ix3 b s (⟨i.val / 2, by omega⟩ : Fin 2) :=
    funext fun a => Fin.ext (by
      match a with
      | ⟨0, _⟩ => show ((b.val * 4096 + s.val) * 4 + i.val) / 16384 = b.val; omega
      | ⟨1, _⟩ => show ((b.val * 4096 + s.val) * 4 + i.val) / 4 % 4096 = s.val; omega
      | ⟨2, _⟩ => show ((b.val * 4096 + s.val) * 4 + i.val) / 2 % 2 = i.val / 2; omega)
  have e2 : idx_main_v28 (idx_main_v30 (idx_main_v32 (ix3 b s i))) = ix3 b s (⟨i.val % 2, by omega⟩ : Fin 2) :=
    funext fun a => Fin.ext (by
      match a with
      | ⟨0, _⟩ => show ((b.val * 4096 + s.val) * 4 + i.val) / 16384 = b.val; omega
      | ⟨1, _⟩ => show ((b.val * 4096 + s.val) * 4 + i.val) / 4 % 4096 = s.val; omega
      | ⟨2, _⟩ => show ((b.val * 4096 + s.val) * 4 + i.val) % 2 = i.val % 2; omega)
  rw [e1, e2]
  rfl

/-- Wire 2 multiplied in: entry i of the 8 amplitudes is entry i / 2 of the 4 before, times entry i % 2 of wire 2's pair. -/
theorem step2_at (x0 : (⟨S8x4096x768, .f32⟩ : BufTy).Contents (Elt Ideal)) (x1 : (⟨S10x768, .f32⟩ : BufTy).Contents (Elt Ideal)) (b : Fin 8) (s : Fin 4096) (i : Fin 8) :
    val_main_v45 (F := Ideal) x0 x1 (ix3 b s i)
      = val_main_v32 (F := Ideal) x0 x1 (ix3 b s (⟨i.val / 2, by omega⟩ : Fin 4))
        * val_main_v39 (F := Ideal) x0 x1 (ix3 b s (⟨i.val % 2, by omega⟩ : Fin 2)) := by
  have hb := b.isLt; have hs := s.isLt; have hi := i.isLt
  rw [val_main_v45_apply, val_main_v44_apply, val_main_v42_apply, val_main_v40_apply, val_main_v43_apply,
    val_main_v41_apply]
  have e1 : idx_main_v40 (idx_main_v42 (idx_main_v45 (ix3 b s i))) = ix3 b s (⟨i.val / 2, by omega⟩ : Fin 4) :=
    funext fun a => Fin.ext (by
      match a with
      | ⟨0, _⟩ => show ((b.val * 4096 + s.val) * 8 + i.val) / 32768 = b.val; omega
      | ⟨1, _⟩ => show ((b.val * 4096 + s.val) * 8 + i.val) / 8 % 4096 = s.val; omega
      | ⟨2, _⟩ => show ((b.val * 4096 + s.val) * 8 + i.val) / 2 % 4 = i.val / 2; omega)
  have e2 : idx_main_v41 (idx_main_v43 (idx_main_v45 (ix3 b s i))) = ix3 b s (⟨i.val % 2, by omega⟩ : Fin 2) :=
    funext fun a => Fin.ext (by
      match a with
      | ⟨0, _⟩ => show ((b.val * 4096 + s.val) * 8 + i.val) / 32768 = b.val; omega
      | ⟨1, _⟩ => show ((b.val * 4096 + s.val) * 8 + i.val) / 8 % 4096 = s.val; omega
      | ⟨2, _⟩ => show ((b.val * 4096 + s.val) * 8 + i.val) % 2 = i.val % 2; omega)
  rw [e1, e2]
  rfl

/-- Wire 3 multiplied in: entry i of the 16 amplitudes is entry i / 2 of the 8 before, times entry i % 2 of wire 3's pair. -/
theorem step3_at (x0 : (⟨S8x4096x768, .f32⟩ : BufTy).Contents (Elt Ideal)) (x1 : (⟨S10x768, .f32⟩ : BufTy).Contents (Elt Ideal)) (b : Fin 8) (s : Fin 4096) (i : Fin 16) :
    val_main_v58 (F := Ideal) x0 x1 (ix3 b s i)
      = val_main_v45 (F := Ideal) x0 x1 (ix3 b s (⟨i.val / 2, by omega⟩ : Fin 8))
        * val_main_v52 (F := Ideal) x0 x1 (ix3 b s (⟨i.val % 2, by omega⟩ : Fin 2)) := by
  have hb := b.isLt; have hs := s.isLt; have hi := i.isLt
  rw [val_main_v58_apply, val_main_v57_apply, val_main_v55_apply, val_main_v53_apply, val_main_v56_apply,
    val_main_v54_apply]
  have e1 : idx_main_v53 (idx_main_v55 (idx_main_v58 (ix3 b s i))) = ix3 b s (⟨i.val / 2, by omega⟩ : Fin 8) :=
    funext fun a => Fin.ext (by
      match a with
      | ⟨0, _⟩ => show ((b.val * 4096 + s.val) * 16 + i.val) / 65536 = b.val; omega
      | ⟨1, _⟩ => show ((b.val * 4096 + s.val) * 16 + i.val) / 16 % 4096 = s.val; omega
      | ⟨2, _⟩ => show ((b.val * 4096 + s.val) * 16 + i.val) / 2 % 8 = i.val / 2; omega)
  have e2 : idx_main_v54 (idx_main_v56 (idx_main_v58 (ix3 b s i))) = ix3 b s (⟨i.val % 2, by omega⟩ : Fin 2) :=
    funext fun a => Fin.ext (by
      match a with
      | ⟨0, _⟩ => show ((b.val * 4096 + s.val) * 16 + i.val) / 65536 = b.val; omega
      | ⟨1, _⟩ => show ((b.val * 4096 + s.val) * 16 + i.val) / 16 % 4096 = s.val; omega
      | ⟨2, _⟩ => show ((b.val * 4096 + s.val) * 16 + i.val) % 2 = i.val % 2; omega)
  rw [e1, e2]
  rfl

/-- Wire 4 multiplied in: entry i of the 32 amplitudes is entry i / 2 of the 16 before, times entry i % 2 of wire 4's pair. -/
theorem step4_at (x0 : (⟨S8x4096x768, .f32⟩ : BufTy).Contents (Elt Ideal)) (x1 : (⟨S10x768, .f32⟩ : BufTy).Contents (Elt Ideal)) (b : Fin 8) (s : Fin 4096) (i : Fin 32) :
    val_main_v71 (F := Ideal) x0 x1 (ix3 b s i)
      = val_main_v58 (F := Ideal) x0 x1 (ix3 b s (⟨i.val / 2, by omega⟩ : Fin 16))
        * val_main_v65 (F := Ideal) x0 x1 (ix3 b s (⟨i.val % 2, by omega⟩ : Fin 2)) := by
  have hb := b.isLt; have hs := s.isLt; have hi := i.isLt
  rw [val_main_v71_apply, val_main_v70_apply, val_main_v68_apply, val_main_v66_apply, val_main_v69_apply,
    val_main_v67_apply]
  have e1 : idx_main_v66 (idx_main_v68 (idx_main_v71 (ix3 b s i))) = ix3 b s (⟨i.val / 2, by omega⟩ : Fin 16) :=
    funext fun a => Fin.ext (by
      match a with
      | ⟨0, _⟩ => show ((b.val * 4096 + s.val) * 32 + i.val) / 131072 = b.val; omega
      | ⟨1, _⟩ => show ((b.val * 4096 + s.val) * 32 + i.val) / 32 % 4096 = s.val; omega
      | ⟨2, _⟩ => show ((b.val * 4096 + s.val) * 32 + i.val) / 2 % 16 = i.val / 2; omega)
  have e2 : idx_main_v67 (idx_main_v69 (idx_main_v71 (ix3 b s i))) = ix3 b s (⟨i.val % 2, by omega⟩ : Fin 2) :=
    funext fun a => Fin.ext (by
      match a with
      | ⟨0, _⟩ => show ((b.val * 4096 + s.val) * 32 + i.val) / 131072 = b.val; omega
      | ⟨1, _⟩ => show ((b.val * 4096 + s.val) * 32 + i.val) / 32 % 4096 = s.val; omega
      | ⟨2, _⟩ => show ((b.val * 4096 + s.val) * 32 + i.val) % 2 = i.val % 2; omega)
  rw [e1, e2]
  rfl

/-- Wire 5 multiplied in: entry i of the 64 amplitudes is entry i / 2 of the 32 before, times entry i % 2 of wire 5's pair. -/
theorem step5_at (x0 : (⟨S8x4096x768, .f32⟩ : BufTy).Contents (Elt Ideal)) (x1 : (⟨S10x768, .f32⟩ : BufTy).Contents (Elt Ideal)) (b : Fin 8) (s : Fin 4096) (i : Fin 64) :
    val_main_v84 (F := Ideal) x0 x1 (ix3 b s i)
      = val_main_v71 (F := Ideal) x0 x1 (ix3 b s (⟨i.val / 2, by omega⟩ : Fin 32))
        * val_main_v78 (F := Ideal) x0 x1 (ix3 b s (⟨i.val % 2, by omega⟩ : Fin 2)) := by
  have hb := b.isLt; have hs := s.isLt; have hi := i.isLt
  rw [val_main_v84_apply, val_main_v83_apply, val_main_v81_apply, val_main_v79_apply, val_main_v82_apply,
    val_main_v80_apply]
  have e1 : idx_main_v79 (idx_main_v81 (idx_main_v84 (ix3 b s i))) = ix3 b s (⟨i.val / 2, by omega⟩ : Fin 32) :=
    funext fun a => Fin.ext (by
      match a with
      | ⟨0, _⟩ => show ((b.val * 4096 + s.val) * 64 + i.val) / 262144 = b.val; omega
      | ⟨1, _⟩ => show ((b.val * 4096 + s.val) * 64 + i.val) / 64 % 4096 = s.val; omega
      | ⟨2, _⟩ => show ((b.val * 4096 + s.val) * 64 + i.val) / 2 % 32 = i.val / 2; omega)
  have e2 : idx_main_v80 (idx_main_v82 (idx_main_v84 (ix3 b s i))) = ix3 b s (⟨i.val % 2, by omega⟩ : Fin 2) :=
    funext fun a => Fin.ext (by
      match a with
      | ⟨0, _⟩ => show ((b.val * 4096 + s.val) * 64 + i.val) / 262144 = b.val; omega
      | ⟨1, _⟩ => show ((b.val * 4096 + s.val) * 64 + i.val) / 64 % 4096 = s.val; omega
      | ⟨2, _⟩ => show ((b.val * 4096 + s.val) * 64 + i.val) % 2 = i.val % 2; omega)
  rw [e1, e2]
  rfl

/-- Wire 6 multiplied in: entry i of the 128 amplitudes is entry i / 2 of the 64 before, times entry i % 2 of wire 6's pair. -/
theorem step6_at (x0 : (⟨S8x4096x768, .f32⟩ : BufTy).Contents (Elt Ideal)) (x1 : (⟨S10x768, .f32⟩ : BufTy).Contents (Elt Ideal)) (b : Fin 8) (s : Fin 4096) (i : Fin 128) :
    val_main_v97 (F := Ideal) x0 x1 (ix3 b s i)
      = val_main_v84 (F := Ideal) x0 x1 (ix3 b s (⟨i.val / 2, by omega⟩ : Fin 64))
        * val_main_v91 (F := Ideal) x0 x1 (ix3 b s (⟨i.val % 2, by omega⟩ : Fin 2)) := by
  have hb := b.isLt; have hs := s.isLt; have hi := i.isLt
  rw [val_main_v97_apply, val_main_v96_apply, val_main_v94_apply, val_main_v92_apply, val_main_v95_apply,
    val_main_v93_apply]
  have e1 : idx_main_v92 (idx_main_v94 (idx_main_v97 (ix3 b s i))) = ix3 b s (⟨i.val / 2, by omega⟩ : Fin 64) :=
    funext fun a => Fin.ext (by
      match a with
      | ⟨0, _⟩ => show ((b.val * 4096 + s.val) * 128 + i.val) / 524288 = b.val; omega
      | ⟨1, _⟩ => show ((b.val * 4096 + s.val) * 128 + i.val) / 128 % 4096 = s.val; omega
      | ⟨2, _⟩ => show ((b.val * 4096 + s.val) * 128 + i.val) / 2 % 64 = i.val / 2; omega)
  have e2 : idx_main_v93 (idx_main_v95 (idx_main_v97 (ix3 b s i))) = ix3 b s (⟨i.val % 2, by omega⟩ : Fin 2) :=
    funext fun a => Fin.ext (by
      match a with
      | ⟨0, _⟩ => show ((b.val * 4096 + s.val) * 128 + i.val) / 524288 = b.val; omega
      | ⟨1, _⟩ => show ((b.val * 4096 + s.val) * 128 + i.val) / 128 % 4096 = s.val; omega
      | ⟨2, _⟩ => show ((b.val * 4096 + s.val) * 128 + i.val) % 2 = i.val % 2; omega)
  rw [e1, e2]
  rfl

/-- Wire 7 multiplied in: entry i of the 256 amplitudes is entry i / 2 of the 128 before, times entry i % 2 of wire 7's pair. -/
theorem step7_at (x0 : (⟨S8x4096x768, .f32⟩ : BufTy).Contents (Elt Ideal)) (x1 : (⟨S10x768, .f32⟩ : BufTy).Contents (Elt Ideal)) (b : Fin 8) (s : Fin 4096) (i : Fin 256) :
    val_main_v110 (F := Ideal) x0 x1 (ix3 b s i)
      = val_main_v97 (F := Ideal) x0 x1 (ix3 b s (⟨i.val / 2, by omega⟩ : Fin 128))
        * val_main_v104 (F := Ideal) x0 x1 (ix3 b s (⟨i.val % 2, by omega⟩ : Fin 2)) := by
  have hb := b.isLt; have hs := s.isLt; have hi := i.isLt
  rw [val_main_v110_apply, val_main_v109_apply, val_main_v107_apply, val_main_v105_apply, val_main_v108_apply,
    val_main_v106_apply]
  have e1 : idx_main_v105 (idx_main_v107 (idx_main_v110 (ix3 b s i))) = ix3 b s (⟨i.val / 2, by omega⟩ : Fin 128) :=
    funext fun a => Fin.ext (by
      match a with
      | ⟨0, _⟩ => show ((b.val * 4096 + s.val) * 256 + i.val) / 1048576 = b.val; omega
      | ⟨1, _⟩ => show ((b.val * 4096 + s.val) * 256 + i.val) / 256 % 4096 = s.val; omega
      | ⟨2, _⟩ => show ((b.val * 4096 + s.val) * 256 + i.val) / 2 % 128 = i.val / 2; omega)
  have e2 : idx_main_v106 (idx_main_v108 (idx_main_v110 (ix3 b s i))) = ix3 b s (⟨i.val % 2, by omega⟩ : Fin 2) :=
    funext fun a => Fin.ext (by
      match a with
      | ⟨0, _⟩ => show ((b.val * 4096 + s.val) * 256 + i.val) / 1048576 = b.val; omega
      | ⟨1, _⟩ => show ((b.val * 4096 + s.val) * 256 + i.val) / 256 % 4096 = s.val; omega
      | ⟨2, _⟩ => show ((b.val * 4096 + s.val) * 256 + i.val) % 2 = i.val % 2; omega)
  rw [e1, e2]
  rfl

/-- Wire 8 multiplied in: entry i of the 512 amplitudes is entry i / 2 of the 256 before, times entry i % 2 of wire 8's pair. -/
theorem step8_at (x0 : (⟨S8x4096x768, .f32⟩ : BufTy).Contents (Elt Ideal)) (x1 : (⟨S10x768, .f32⟩ : BufTy).Contents (Elt Ideal)) (b : Fin 8) (s : Fin 4096) (i : Fin 512) :
    val_main_v123 (F := Ideal) x0 x1 (ix3 b s i)
      = val_main_v110 (F := Ideal) x0 x1 (ix3 b s (⟨i.val / 2, by omega⟩ : Fin 256))
        * val_main_v117 (F := Ideal) x0 x1 (ix3 b s (⟨i.val % 2, by omega⟩ : Fin 2)) := by
  have hb := b.isLt; have hs := s.isLt; have hi := i.isLt
  rw [val_main_v123_apply, val_main_v122_apply, val_main_v120_apply, val_main_v118_apply, val_main_v121_apply,
    val_main_v119_apply]
  have e1 : idx_main_v118 (idx_main_v120 (idx_main_v123 (ix3 b s i))) = ix3 b s (⟨i.val / 2, by omega⟩ : Fin 256) :=
    funext fun a => Fin.ext (by
      match a with
      | ⟨0, _⟩ => show ((b.val * 4096 + s.val) * 512 + i.val) / 2097152 = b.val; omega
      | ⟨1, _⟩ => show ((b.val * 4096 + s.val) * 512 + i.val) / 512 % 4096 = s.val; omega
      | ⟨2, _⟩ => show ((b.val * 4096 + s.val) * 512 + i.val) / 2 % 256 = i.val / 2; omega)
  have e2 : idx_main_v119 (idx_main_v121 (idx_main_v123 (ix3 b s i))) = ix3 b s (⟨i.val % 2, by omega⟩ : Fin 2) :=
    funext fun a => Fin.ext (by
      match a with
      | ⟨0, _⟩ => show ((b.val * 4096 + s.val) * 512 + i.val) / 2097152 = b.val; omega
      | ⟨1, _⟩ => show ((b.val * 4096 + s.val) * 512 + i.val) / 512 % 4096 = s.val; omega
      | ⟨2, _⟩ => show ((b.val * 4096 + s.val) * 512 + i.val) % 2 = i.val % 2; omega)
  rw [e1, e2]
  rfl

/-- Wire 9 multiplied in: entry i of the 1024 amplitudes is entry i / 2 of the 512 before, times entry i % 2 of wire 9's pair. -/
theorem step9_at (x0 : (⟨S8x4096x768, .f32⟩ : BufTy).Contents (Elt Ideal)) (x1 : (⟨S10x768, .f32⟩ : BufTy).Contents (Elt Ideal)) (b : Fin 8) (s : Fin 4096) (i : Fin 1024) :
    val_main_v136 (F := Ideal) x0 x1 (ix3 b s i)
      = val_main_v123 (F := Ideal) x0 x1 (ix3 b s (⟨i.val / 2, by omega⟩ : Fin 512))
        * val_main_v130 (F := Ideal) x0 x1 (ix3 b s (⟨i.val % 2, by omega⟩ : Fin 2)) := by
  have hb := b.isLt; have hs := s.isLt; have hi := i.isLt
  rw [val_main_v136_apply, val_main_v135_apply, val_main_v133_apply, val_main_v131_apply, val_main_v134_apply,
    val_main_v132_apply]
  have e1 : idx_main_v131 (idx_main_v133 (idx_main_v136 (ix3 b s i))) = ix3 b s (⟨i.val / 2, by omega⟩ : Fin 512) :=
    funext fun a => Fin.ext (by
      match a with
      | ⟨0, _⟩ => show ((b.val * 4096 + s.val) * 1024 + i.val) / 4194304 = b.val; omega
      | ⟨1, _⟩ => show ((b.val * 4096 + s.val) * 1024 + i.val) / 1024 % 4096 = s.val; omega
      | ⟨2, _⟩ => show ((b.val * 4096 + s.val) * 1024 + i.val) / 2 % 512 = i.val / 2; omega)
  have e2 : idx_main_v132 (idx_main_v134 (idx_main_v136 (ix3 b s i))) = ix3 b s (⟨i.val % 2, by omega⟩ : Fin 2) :=
    funext fun a => Fin.ext (by
      match a with
      | ⟨0, _⟩ => show ((b.val * 4096 + s.val) * 1024 + i.val) / 4194304 = b.val; omega
      | ⟨1, _⟩ => show ((b.val * 4096 + s.val) * 1024 + i.val) / 1024 % 4096 = s.val; omega
      | ⟨2, _⟩ => show ((b.val * 4096 + s.val) * 1024 + i.val) % 2 = i.val % 2; omega)
  rw [e1, e2]
  rfl

end Cert.ReferenceIdeal.Hand

end
-- ==== Proof.RefState.lean ====
/-
  The reference's state array is the specification's.

  Unrolling the ten Kronecker steps at basis vector j: wire 9 reads digit 0 of j (j % 2) and leaves j / 2 to the wires before
  it, wire 8 reads digit 0 of j / 2, that is digit 1 of j, and so on down to wire 0, which reads j / 512 (digit 9; below 2
  because j < 1024). Each pair entry is the cosine amplitude at digit 0 and the sine amplitude at digit 1, so the product is
  1 * a_0 * ... * a_9 with a_q the amplitude digit 9 - q of j selects: the specification's state, factor by factor.
-/
import proofs.«143464_j27161373180356_2_alg».proof.Proof.Gen.ReferenceIdeal.Read
import proofs.«143464_j27161373180356_2_alg».proof.Proof.QSpec
import proofs.«143464_j27161373180356_2_alg».proof.Proof.RefAngles
import proofs.«143464_j27161373180356_2_alg».proof.Proof.RefPairs
import proofs.«143464_j27161373180356_2_alg».proof.Proof.RefSteps
import Idealize.ShloMosaic.Lib.Pipeline.Value
import Idealize.ShloMosaic.Lib.ValueIdx

noncomputable section

namespace Cert.ReferenceIdeal.Hand

open Cert.ReferenceIdeal Cert.ReferenceIdeal.Gen Cert.ReferenceIdeal.Read Idealize.ShloMosaic Idealize.ShloMosaic.ValueIdx
open scoped BigOperators

/-- A pair entry chosen by a digit: entry e of (c, s), where e is digit k of j, is the amplitude that digit selects. -/
theorem amp_of_digit (c s : EReal) (j k e : ℕ) (he : e = j / 2 ^ k % 2) : (if e = 0 then c else s) = QSpec.amp c s j k := by
  subst he; rfl

/-- The reference's state at (b, s, j) is the specification's. -/
theorem state_at (x0 : (⟨S8x4096x768, .f32⟩ : BufTy).Contents (Elt Ideal)) (x1 : (⟨S10x768, .f32⟩ : BufTy).Contents (Elt Ideal)) (b : Fin 8) (s : Fin 4096) (j : Fin 1024) :
    val_main_v136 (F := Ideal) x0 x1 (ix3 b s j) = QSpec.state x0 x1 b s j.val := by
  have hj := j.isLt
  rw [step9_at, step8_at, step7_at, step6_at, step5_at, step4_at, step3_at, step2_at, step1_at]
  simp only [step0_at, pair9_at, pair8_at, pair7_at, pair6_at, pair5_at, pair4_at, pair3_at, pair2_at, pair1_at, pair0_at,
    cos_at, sin_at]
  unfold QSpec.state QSpec.wire
  refine (congrArg₂ (· * ·) (congrArg₂ (· * ·) (congrArg₂ (· * ·) (congrArg₂ (· * ·) (congrArg₂ (· * ·) (congrArg₂ (· * ·) (congrArg₂ (· * ·) (congrArg₂ (· * ·) (congrArg₂ (· * ·) (congrArg₂ (· * ·) rfl (amp_of_digit _ _ j.val 9 _ ?_)) (amp_of_digit _ _ j.val 8 _ ?_)) (amp_of_digit _ _ j.val 7 _ ?_)) (amp_of_digit _ _ j.val 6 _ ?_)) (amp_of_digit _ _ j.val 5 _ ?_)) (amp_of_digit _ _ j.val 4 _ ?_)) (amp_of_digit _ _ j.val 3 _ ?_)) (amp_of_digit _ _ j.val 2 _ ?_)) (amp_of_digit _ _ j.val 1 _ ?_)) (amp_of_digit _ _ j.val 0 _ ?_))
  · show j.val / 2 / 2 / 2 / 2 / 2 / 2 / 2 / 2 / 2 = j.val / 2 ^ 9 % 2; omega
  · show j.val / 2 / 2 / 2 / 2 / 2 / 2 / 2 / 2 % 2 = j.val / 2 ^ 8 % 2; omega
  · show j.val / 2 / 2 / 2 / 2 / 2 / 2 / 2 % 2 = j.val / 2 ^ 7 % 2; omega
  · show j.val / 2 / 2 / 2 / 2 / 2 / 2 % 2 = j.val / 2 ^ 6 % 2; omega
  · show j.val / 2 / 2 / 2 / 2 / 2 % 2 = j.val / 2 ^ 5 % 2; omega
  · show j.val / 2 / 2 / 2 / 2 % 2 = j.val / 2 ^ 4 % 2; omega
  · show j.val / 2 / 2 / 2 % 2 = j.val / 2 ^ 3 % 2; omega
  · show j.val / 2 / 2 % 2 = j.val / 2 ^ 2 % 2; omega
  · show j.val / 2 % 2 = j.val / 2 ^ 1 % 2; omega
  · show j.val % 2 = j.val / 2 ^ 0 % 2; omega

/-- The reference's state array is the specification's state array. -/
theorem state_eq (x0 : (⟨S8x4096x768, .f32⟩ : BufTy).Contents (Elt Ideal)) (x1 : (⟨S10x768, .f32⟩ : BufTy).Contents (Elt Ideal)) : val_main_v136 (F := Ideal) x0 x1 = QSpec.stateG x0 x1 := by
  funext i
  obtain ⟨b, s, j, rfl⟩ : ∃ (b : Fin 8) (s : Fin 4096) (j : Fin 1024), i = ix3 b s j := ⟨i 0, i 1, i 2, eq_ix3 i⟩
  exact state_at x0 x1 b s j

/-- The reference's angles array is the specification's angles array. -/
theorem angles_eq (x0 : (⟨S8x4096x768, .f32⟩ : BufTy).Contents (Elt Ideal)) (x1 : (⟨S10x768, .f32⟩ : BufTy).Contents (Elt Ideal)) : val_main_v2 (F := Ideal) x0 x1 = QSpec.anglesG x0 x1 := by
  funext i
  obtain ⟨b, s, q, rfl⟩ : ∃ (b : Fin 8) (s : Fin 4096) (q : Fin 10), i = ix3 b s q := ⟨i 0, i 1, i 2, eq_ix3 i⟩
  exact angle_at x0 x1 b s q

end Cert.ReferenceIdeal.Hand

end
-- ==== Proof.lean ====
/-
  The product state of ten rotated qubits: a tiled kernel against its array-wide reference, on extended reals.

  Both programs project each token's activations on ten wires (a sum over 768 lanes of activation times weight, times 1),
  halve the angle, take its cosine and sine, and multiply, from 1 and wire 0 first, the amplitude that each binary digit of
  the basis-vector number j selects. They differ only in layout. The kernel works on blocks of 1024 tokens, keeps the state
  as a [1024, 1024] matrix and picks the digit of j by shifting and masking the lane number. The reference works on the whole
  arrays and doubles the state vector wire by wire, flattening [n, 2] to [2n], so that digit 0 of the flattened index selects
  the new wire's amplitude and the rest of the index the old entry. Unrolled, both are the specification's
  1 * a_0 * ... * a_9 with the same factors in the same order, so no law of arithmetic is needed beyond commuting the
  factor 1 in the angle, and the finiteness of the inputs is never used.

  The three frames: the two kernels' frames are the generated ones; the reference's frame is its generated run with the
  results dropped. The kernel's idealization rewrote nothing, so there is nothing to preserve.
-/
import proofs.«143464_j27161373180356_2_alg».proof.Defs
import proofs.«143464_j27161373180356_2_alg».proof.Proof.Gen.Kernel
import proofs.«143464_j27161373180356_2_alg».proof.Proof.Gen.Kernel.Skeleton
import proofs.«143464_j27161373180356_2_alg».proof.Proof.Gen.Kernel.Launch
import proofs.«143464_j27161373180356_2_alg».proof.Proof.Gen.Kernel.Points
import proofs.«143464_j27161373180356_2_alg».proof.Proof.Gen.Kernel.Frame
import proofs.«143464_j27161373180356_2_alg».proof.Proof.Gen.KernelIdeal
import proofs.«143464_j27161373180356_2_alg».proof.Proof.Gen.KernelIdeal.Skeleton
import proofs.«143464_j27161373180356_2_alg».proof.Proof.Gen.KernelIdeal.Launch
import proofs.«143464_j27161373180356_2_alg».proof.Proof.Gen.KernelIdeal.Points
import proofs.«143464_j27161373180356_2_alg».proof.Proof.Gen.KernelIdeal.Frame
import proofs.«143464_j27161373180356_2_alg».proof.Proof.Gen.ReferenceIdeal
import proofs.«143464_j27161373180356_2_alg».proof.Proof.Gen.Pre_finite_inputs
import proofs.«143464_j27161373180356_2_alg».proof.Proof.Gen.KernelIdeal.Value
import proofs.«143464_j27161373180356_2_alg».proof.Proof.Gen.ReferenceIdeal.Run
import proofs.«143464_j27161373180356_2_alg».proof.Proof.Gen.ReferenceIdeal.Read
import proofs.«143464_j27161373180356_2_alg».proof.Proof.KernelArrays
import proofs.«143464_j27161373180356_2_alg».proof.Proof.RefState
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference's run ends with its arguments unchanged. -/
theorem frame_reference_ideal : Cert.frame_ReferenceIdeal := fun m ρ _ =>
  (θ_run Cert.ReferenceIdeal.defs _ _).mono (fun _ h c => ⟨(h c).2.2.1, (h c).2.2.2⟩)
    (Cert.ReferenceIdeal.Value.run (F := Ideal) m ρ)

/-- Both runs end with the specification's state and angles of the (agreeing) argument arrays. -/
theorem algebraic : Cert.algebraic_KernelIdeal_ReferenceIdeal := by
  intro m ρ m' ρ' _ hagree
  refine ⟨fun c => QSpec.stateG (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    fun c => QSpec.anglesG (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Hand.run m ρ, ?_⟩
  refine (θ_run Cert.ReferenceIdeal.defs _ _).mono (fun _ h c => ?_) (Cert.ReferenceIdeal.Value.run (F := Ideal) m' ρ')
  refine ⟨(h c).1.trans ?_, (h c).2.1.trans ?_, (h c).2.2.1, (h c).2.2.2⟩
  · rw [Cert.ReferenceIdeal.Read.val_main_v136_eq, Cert.ReferenceIdeal.Hand.state_eq, (hagree c).1, (hagree c).2]
  · rw [Cert.ReferenceIdeal.Read.val_main_v2_eq, Cert.ReferenceIdeal.Hand.angles_eq, (hagree c).1, (hagree c).2]

theorem claim : Cert.Claim := ⟨Cert.Kernel.Gen.facts, Cert.KernelIdeal.Gen.facts, Cert.ReferenceIdeal.Gen.facts,
  Cert.Pre_finite_inputs.Gen.facts, frame_kernel, frame_kernel_ideal, frame_reference_ideal, trivial, algebraic⟩

end Cert.Proof

end
